-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S768x64 : Shape := ⟨2, ![768, 64]⟩
abbrev S64 : Shape := ⟨1, ![64]⟩
abbrev S64x768 : Shape := ⟨2, ![64, 768]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x768 : S_.BroadcastsInDim S64x768 (![] : Fin 0 → Fin S64x768.rank)
  reducesTo_S64x768_S_d0_1 : S64x768.ReducesTo [0, 1] S_
  bcast_S_S768 : S_.BroadcastsInDim S768 (![] : Fin 0 → Fin S768.rank)
  reducesTo_S768_S_d0 : S768.ReducesTo [0] S_

variable [Facts]

def fn_part2 {F : FTy → Type} [FloatOps F] (main_arg7 : FVec F S64x768 .f32) (main_arg8 : FVec F S768 .f32) (main_v33 : IVec S_ 1) : IVec S_ 1 :=
  let main_v34 : FVec F S64x768 .f32 := Host.absf main_arg7
  let main_cst_12 : FVec F S_ .f32 := constant S_ .f32 0x7F800000#32
  let main_v35 : FVec F S64x768 .f32 := broadcastInDim S64x768 ![] bcast_S_S64x768 main_cst_12
  let main_v36 : IVec S64x768 1 := cmpf .olt main_v34 main_v35
  let main_c_13 : IVec S_ 1 := constantI S_ 1 1#1
  let main_v37 : IVec S_ 1 := (fun x v => Host.reduce IntOp.andi x v reducesTo_S64x768_S_d0_1 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  main_v43

def fn_part1 {F : FTy → Type} [FloatOps F] (main_arg4 : FVec F S64 .f32) (main_arg5 : FVec F S768x64 .f32) (main_arg6 : FVec F S64 .f32) (main_arg7 : FVec F S64x768 .f32) (main_arg8 : FVec F S768 .f32) (main_v13 : IVec S_ 1) (main_v16 : IVec S768x64 1) : IVec S_ 1 :=
  let main_c_5 : IVec S_ 1 := constantI S_ 1 1#1
  let main_v17 : IVec S_ 1 := (fun x v => Host.reduce IntOp.andi x v reducesTo_S768x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S4x4096x768 .f32) (main_arg1 : FVec F S768x64 .f32) (main_arg2 : FVec F S64 .f32) (main_arg3 : FVec F S768x64 .f32) (main_arg4 : FVec F S64 .f32) (main_arg5 : FVec F S768x64 .f32) (main_arg6 : FVec F S64 .f32) (main_arg7 : FVec F S64x768 .f32) (main_arg8 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S768x64 .f32 := Host.absf main_arg1
  let main_cst_0 : FVec F S_ .f32 := constant S_ .f32 0x7F800000#32
  let main_v5 : FVec F S768x64 .f32 := broadcastInDim S768x64 ![] bcast_S_S768x64 main_cst_0
  let main_v6 : IVec S768x64 1 := cmpf .olt main_v4 main_v5
  let main_c_1 : IVec S_ 1 := constantI S_ 1 1#1
  let main_v7 : IVec S_ 1 := (fun x v => Host.reduce IntOp.andi x v reducesTo_S768x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S768x64 .f32 := Host.absf main_arg3
  let main_cst_4 : FVec F S_ .f32 := constant S_ .f32 0x7F800000#32
  let main_v15 : FVec F S768x64 .f32 := broadcastInDim S768x64 ![] bcast_S_S768x64 main_cst_4
  let main_v16 : IVec S768x64 1 := cmpf .olt main_v14 main_v15
  fn_part1 (F := F) main_arg4 main_arg5 main_arg6 main_arg7 main_arg8 main_v13 main_v16
-- ==== Kernel.lean ====
abbrev S4x4096x768 : Shape := ⟨3, ![4, 4096, 768]⟩
abbrev S768x64 : Shape := ⟨2, ![768, 64]⟩
abbrev S64 : Shape := ⟨1, ![64]⟩
abbrev S64x768 : Shape := ⟨2, ![64, 768]⟩
abbrev S768 : Shape := ⟨1, ![768]⟩
abbrev S768x192 : Shape := ⟨2, ![768, 192]⟩
abbrev S192 : Shape := ⟨1, ![192]⟩
abbrev S4x4096x64 : Shape := ⟨3, ![4, 4096, 64]⟩
abbrev S4x64x4096 : Shape := ⟨3, ![4, 64, 4096]⟩
abbrev S1x2048x768 : Shape := ⟨3, ![1, 2048, 768]⟩
abbrev S1x2048x64 : Shape := ⟨3, ![1, 2048, 64]⟩
abbrev S1x64x2048 : Shape := ⟨3, ![1, 64, 2048]⟩
abbrev S2048x768 : Shape := ⟨2, ![2048, 768]⟩
abbrev S2048x192 : Shape := ⟨2, ![2048, 192]⟩
abbrev S1x192 : Shape := ⟨2, ![1, 192]⟩
abbrev S2048x64 : Shape := ⟨2, ![2048, 64]⟩
abbrev S64x2048 : Shape := ⟨2, ![64, 2048]⟩
abbrev S1x256x64 : Shape := ⟨3, ![1, 256, 64]⟩
abbrev S1x64x4096 : Shape := ⟨3, ![1, 64, 4096]⟩
abbrev S1x4096x64 : Shape := ⟨3, ![1, 4096, 64]⟩
abbrev S1x256x768 : Shape := ⟨3, ![1, 256, 768]⟩
abbrev S256x64 : Shape := ⟨2, ![256, 64]⟩
abbrev S64x4096 : Shape := ⟨2, ![64, 4096]⟩
abbrev S4096x64 : Shape := ⟨2, ![4096, 64]⟩
abbrev S256x4096 : Shape := ⟨2, ![256, 4096]⟩
abbrev S256 : Shape := ⟨1, ![256]⟩
abbrev S256x1 : Shape := ⟨2, ![256, 1]⟩
abbrev S256x768 : Shape := ⟨2, ![256, 768]⟩
abbrev S1x768 : Shape := ⟨2, ![1, 768]⟩

abbrev nBuf : Space → Nat
  | .hbm => 15
  | .vmem => 20
  | .smem => 0
  | _ => 0

abbrev bufTy : (tb : Table) → Fin (tcTables nBuf tb) → BufTy
  | .hbm, ⟨0, _⟩ => ⟨S4x4096x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S64x768, .f32⟩
  | .hbm, ⟨8, _⟩ => ⟨S768, .f32⟩
  | .hbm, ⟨9, _⟩ => ⟨S768x192, .f32⟩
  | .hbm, ⟨10, _⟩ => ⟨S192, .f32⟩
  | .hbm, ⟨11, _⟩ => ⟨S4x4096x64, .bf16⟩
  | .hbm, ⟨12, _⟩ => ⟨S4x64x4096, .bf16⟩
  | .hbm, ⟨13, _⟩ => ⟨S4x4096x64, .bf16⟩
  | .hbm, ⟨14, _⟩ => ⟨S4x4096x768, .f32⟩
  | .local _ .vmem, ⟨0, _⟩ => ⟨S1x2048x768, .f32⟩
  | .local _ .vmem, ⟨1, _⟩ => ⟨S1x2048x768, .f32⟩
  | .local _ .vmem, ⟨2, _⟩ => ⟨S768x192, .f32⟩
  | .local _ .vmem, ⟨3, _⟩ => ⟨S192, .f32⟩
  | .local _ .vmem, ⟨4, _⟩ => ⟨S1x2048x64, .bf16⟩
  | .local _ .vmem, ⟨5, _⟩ => ⟨S1x2048x64, .bf16⟩
  | .local _ .vmem, ⟨6, _⟩ => ⟨S1x64x2048, .bf16⟩
  | .local _ .vmem, ⟨7, _⟩ => ⟨S1x64x2048, .bf16⟩
  | .local _ .vmem, ⟨8, _⟩ => ⟨S1x2048x64, .bf16⟩
  | .local _ .vmem, ⟨9, _⟩ => ⟨S1x2048x64, .bf16⟩
  | .local _ .vmem, ⟨10, _⟩ => ⟨S1x256x64, .bf16⟩
  | .local _ .vmem, ⟨11, _⟩ => ⟨S1x256x64, .bf16⟩
  | .local _ .vmem, ⟨12, _⟩ => ⟨S1x64x4096, .bf16⟩
  | .local _ .vmem, ⟨13, _⟩ => ⟨S1x64x4096, .bf16⟩
  | .local _ .vmem, ⟨14, _⟩ => ⟨S1x4096x64, .bf16⟩
  | .local _ .vmem, ⟨15, _⟩ => ⟨S1x4096x64, .bf16⟩
  | .local _ .vmem, ⟨16, _⟩ => ⟨S64x768, .f32⟩
  | .local _ .vmem, ⟨17, _⟩ => ⟨S768, .f32⟩
  | .local _ .vmem, ⟨18, _⟩ => ⟨S1x256x768, .f32⟩
  | .local _ .vmem, ⟨19, _⟩ => ⟨S1x256x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem5_1 : DmaSem sig := 19

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x64x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x64x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S64x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S1x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

class Facts₀ : Prop where
  concatenates_S768x64_S768x64_S768x64_S768x192_d1 : Shape.Concatenates [S768x64, S768x64, S768x64] S768x192 1
  concatenates_S64_S64_S64_S192_d0 : Shape.Concatenates [S64, S64, S64] S192 0
  inb_S1x2048x768_S1x2048x768_0_0_0 : ∀ a, (![0, 0, 0] : Fin 3 → Nat) a + S1x2048x768.size a ≤ S1x2048x768.size a
  h_S1x2048x768 : 0 < S1x2048x768.numel
  shapeCasts_S1x2048x768_S2048x768 : S1x2048x768.ShapeCasts S2048x768
  bitsLt_bf16_f32 : FTy.bits .bf16 < FTy.bits .f32
  inb_S768x192_S768x192_0_0 : ∀ a, (![0, 0] : Fin 2 → Nat) a + S768x192.size a ≤ S768x192.size a
  h_S768x192 : 0 < S768x192.numel
  shapeCasts_S768x192_S768x192 : S768x192.ShapeCasts S768x192
  inb_S192_S192_0 : ∀ a, (![0] : Fin 1 → Nat) a + S192.size a ≤ S192.size a
  h_S192 : 0 < S192.numel
  shapeCasts_S192_S192 : S192.ShapeCasts S192
  shapeCasts_S192_S1x192 : S192.ShapeCasts S1x192
  broadcasts_S1x192_S2048x192 : S1x192.Broadcasts S2048x192
  slices_S2048x192_o0_0_S2048x64 : S2048x192.Slices ![0, 0] S2048x64
  slices_S2048x192_o0_64_S2048x64 : S2048x192.Slices ![0, 64] S2048x64
  slices_S2048x192_o0_128_S2048x64 : S2048x192.Slices ![0, 128] S2048x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  shapeCasts_S2048x64_S1x2048x64 : S2048x64.ShapeCasts S1x2048x64
  packedbf16_S1x2048x64_S1x2048x64_0_0_0 : (Rect.unit (s := S1x2048x64) ![0, 0, 0] S1x2048x64.size inb_S1x2048x64_S1x2048x64_0_0_0).PackedRows (EltTy.packing .bf16)
  transposes_S2048x64_p1_0_S64x2048 : S2048x64.Transposes [1, 0] S64x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  shapeCasts_S64x2048_S1x64x2048 : S64x2048.ShapeCasts S1x64x2048
  packedbf16_S1x64x2048_S1x64x2048_0_0_0 : (Rect.unit (s := S1x64x2048) ![0, 0, 0] S1x64x2048.size inb_S1x64x2048_S1x64x2048_0_0_0).PackedRows (EltTy.packing .bf16)
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S1x4096x64_S1x4096x64_0_0_0 : ∀ a, (![0, 0, 0] : Fin 3 → Nat) a + S1x4096x64.size a ≤ S1x4096x64.size a
  h_S1x4096x64 : 0 < S1x4096x64.numel
  shapeCasts_S1x4096x64_S4096x64 : S1x4096x64.ShapeCasts S4096x64
  reduces_S256x4096_S256 : S256x4096.Reduces [1] S256
  shapeCasts_S256_S256x1 : S256.ShapeCasts S256x1
  broadcasts_S256x1_S256x4096 : S256x1.Broadcasts S256x4096
  inb_S64x768_S64x768_0_0 : ∀ a, (![0, 0] : Fin 2 → Nat) a + S64x768.size a ≤ S64x768.size a
  h_S64x768 : 0 < S64x768.numel
  inb_S768_S768_0 : ∀ a, (![0] : Fin 1 → Nat) a + S768.size a ≤ S768.size a
  h_S768 : 0 < S768.numel
  shapeCasts_S768_S1x768 : S768.ShapeCasts S1x768
  broadcasts_S1x768_S256x768 : S1x768.Broadcasts S256x768
  inb_S1x256x768_S1x256x768_0_0_0 : ∀ a, (![0, 0, 0] : Fin 3 → Nat) a + S1x256x768.size a ≤ S1x256x768.size a
  h_S1x256x768 : 0 < S1x256x768.numel
  shapeCasts_S1x256x768_S256x768 : S1x256x768.ShapeCasts S256x768
  shapeCasts_S256x768_S1x256x768 : S256x768.ShapeCasts S1x256x768
  dot_S2048x768_S768x192_S2048x192_1_0_0_1_n_n_wf : DotDims.WF S2048x768 S768x192 S2048x192 [1] [0] [0] [1] [] []
  dot_S256x64_S64x4096_S256x4096_1_0_0_1_n_n_wf : DotDims.WF S256x64 S64x4096 S256x4096 [1] [0] [0] [1] [] []
  dot_S256x4096_S4096x64_S256x64_1_0_0_1_n_n_wf : DotDims.WF S256x4096 S4096x64 S256x64 [1] [0] [0] [1] [] []
  dot_S256x64_S64x768_S256x768_1_0_0_1_n_n_wf : DotDims.WF S256x64 S64x768 S256x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x768.size a ≤ S4x4096x768.size a
  hwx0_0 : ∀ i : grid0.Coords, EltTy.bits .f32 = 32 ∨ (Rect.block (s := S4x4096x768) S1x2048x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x192.size a ≤ S768x192.size a
  hwx0_1 : ∀ i : grid0.Coords, EltTy.bits .f32 = 32 ∨ (Rect.block (s := S768x192) S768x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192.size a ≤ S192.size a
  hwx0_2 : ∀ i : grid0.Coords, EltTy.bits .f32 = 32 ∨ (Rect.block (s := S192) S192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x64.size a ≤ S4x4096x64.size a
  hwx0_3 : ∀ i : grid0.Coords, EltTy.bits .bf16 = 32 ∨ (Rect.block (s := S4x4096x64) S1x2048x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x2048.size a ≤ S4x64x4096.size a
  hwx0_4 : ∀ i : grid0.Coords, EltTy.bits .bf16 = 32 ∨ (Rect.block (s := S4x64x4096) S1x64x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x2048x64.size a ≤ S4x4096x64.size a
  hwx0_5 : ∀ i : grid0.Coords, EltTy.bits .bf16 = 32 ∨ (Rect.block (s := S4x4096x64) S1x2048x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x64.size a ≤ S4x4096x64.size a
  hwx1_0 : ∀ i : grid1.Coords, EltTy.bits .bf16 = 32 ∨ (Rect.block (s := S4x4096x64) S1x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x4096.size a ≤ S4x64x4096.size a
  hwx1_1 : ∀ i : grid1.Coords, EltTy.bits .bf16 = 32 ∨ (Rect.block (s := S4x64x4096) S1x64x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x4096x64.size a ≤ S4x4096x64.size a
  hwx1_2 : ∀ i : grid1.Coords, EltTy.bits .bf16 = 32 ∨ (Rect.block (s := S4x4096x64) S1x4096x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x768.size a ≤ S64x768.size a
  hwx1_3 : ∀ i : grid1.Coords, EltTy.bits .f32 = 32 ∨ (Rect.block (s := S64x768) S64x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S768.size a ≤ S768.size a
  hwx1_4 : ∀ i : grid1.Coords, EltTy.bits .f32 = 32 ∨ (Rect.block (s := S768) S768.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256x768.size a ≤ S4x4096x768.size a
  hwx1_5 : ∀ i : grid1.Coords, EltTy.bits .f32 = 32 ∨ (Rect.block (s := S4x4096x768) S1x256x768.size (cc1_transform_5 i) (hinb1_5 i)).WholeWords (EltTy.packing .f32)

variable [Facts₀]

def dot_S2048x768_S768x192_S2048x192_1_0_0_1_n_n : DotDims S2048x768 S768x192 S2048x192 where
  lhsContracting := [1]
  rhsContracting := [0]
  lhsNonContracting := [0]
  rhsNonContracting := [1]
  lhsBatch := []
  rhsBatch := []
  wf := dot_S2048x768_S768x192_S2048x192_1_0_0_1_n_n_wf
def dot_S256x64_S64x4096_S256x4096_1_0_0_1_n_n : DotDims S256x64 S64x4096 S256x4096 where
  lhsContracting := [1]
  rhsContracting := [0]
  lhsNonContracting := [0]
  rhsNonContracting := [1]
  lhsBatch := []
  rhsBatch := []
  wf := dot_S256x64_S64x4096_S256x4096_1_0_0_1_n_n_wf
def dot_S256x4096_S4096x64_S256x64_1_0_0_1_n_n : DotDims S256x4096 S4096x64 S256x64 where
  lhsContracting := [1]
  rhsContracting := [0]
  lhsNonContracting := [0]
  rhsNonContracting := [1]
  lhsBatch := []
  rhsBatch := []
  wf := dot_S256x4096_S4096x64_S256x64_1_0_0_1_n_n_wf
def dot_S256x64_S64x768_S256x768_1_0_0_1_n_n : DotDims S256x64 S64x768 S256x768 where
  lhsContracting := [1]
  rhsContracting := [0]
  lhsNonContracting := [0]
  rhsNonContracting := [1]
  lhsBatch := []
  rhsBatch := []
  wf := dot_S256x64_S64x768_S256x768_1_0_0_1_n_n_wf

abbrev win0_0 : Pipeline.Window sig grid0 :=
  Pipeline.Window.ofSpec (Memref.whole main_arg0) S1x2048x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2_0) S1x2048x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2_1) S1x64x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_2) S1x2048x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v2_0) S1x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2_1) S1x64x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_2) S1x4096x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S1x256x768.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S768x64 : Shape := ⟨2, ![768, 64]⟩
abbrev S64 : Shape := ⟨1, ![64]⟩
abbrev S64x768 : Shape := ⟨2, ![64, 768]⟩
abbrev S768 : Shape := ⟨1, ![768]⟩
abbrev S4x4096x64 : Shape := ⟨3, ![4, 4096, 64]⟩
abbrev S1x1x64 : Shape := ⟨3, ![1, 1, 64]⟩
abbrev S_ : Shape := ⟨0, ![]⟩
abbrev S4x4096x4096 : Shape := ⟨3, ![4, 4096, 4096]⟩
abbrev S4x4096 : Shape := ⟨2, ![4, 4096]⟩
abbrev S4x4096x1 : Shape := ⟨3, ![4, 4096, 1]⟩
abbrev S1x1x768 : Shape := ⟨3, ![1, 1, 768]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S768x64, .f32⟩
  | .hbm, ⟨2, _⟩ => ⟨S64, .f32⟩
  | .hbm, ⟨3, _⟩ => ⟨S768x64, .f32⟩
  | .hbm, ⟨4, _⟩ => ⟨S64, .f32⟩
  | .hbm, ⟨5, _⟩ => ⟨S768x64, .f32⟩
  | .hbm, ⟨6, _⟩ => ⟨S64, .f32⟩
  | .hbm, ⟨7, _⟩ => ⟨S64x768, .f32⟩
  | .hbm, ⟨8, _⟩ => ⟨S768, .f32⟩
  | .hbm, ⟨9, _⟩ => ⟨S4x4096x64, .f32⟩
  | .hbm, ⟨10, _⟩ => ⟨S1x1x64, .f32⟩
  | .hbm, ⟨11, _⟩ => ⟨S4x4096x64, .f32⟩
  | .hbm, ⟨12, _⟩ => ⟨S4x4096x64, .f32⟩
  | .hbm, ⟨13, _⟩ => ⟨S4x4096x64, .f32⟩
  | .hbm, ⟨14, _⟩ => ⟨S1x1x64, .f32⟩
  | .hbm, ⟨15, _⟩ => ⟨S4x4096x64, .f32⟩
  | .hbm, ⟨16, _⟩ => ⟨S4x4096x64, .f32⟩
  | .hbm, ⟨17, _⟩ => ⟨S4x4096x64, .f32⟩
  | .hbm, ⟨18, _⟩ => ⟨S1x1x64, .f32⟩
  | .hbm, ⟨19, _⟩ => ⟨S4x4096x64, .f32⟩
  | .hbm, ⟨20, _⟩ => ⟨S4x4096x64, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S_, .f32⟩
  | .hbm, ⟨31, _⟩ => ⟨S4x4096, .f32⟩
  | .hbm, ⟨32, _⟩ => ⟨S4x4096, .f32⟩
  | .hbm, ⟨33, _⟩ => ⟨S4x4096x1, .f32⟩
  | .hbm, ⟨34, _⟩ => ⟨S4x4096x4096, .f32⟩
  | .hbm, ⟨35, _⟩ => ⟨S4x4096x4096, .f32⟩
  | .hbm, ⟨36, _⟩ => ⟨S4x4096x4096, .f32⟩
  | .hbm, ⟨37, _⟩ => ⟨S_, .f32⟩
  | .hbm, ⟨38, _⟩ => ⟨S4x4096, .f32⟩
  | .hbm, ⟨39, _⟩ => ⟨S4x4096x1, .f32⟩
  | .hbm, ⟨40, _⟩ => ⟨S4x4096x4096, .f32⟩
  | .hbm, ⟨41, _⟩ => ⟨S4x4096x4096, .f32⟩
  | .hbm, ⟨42, _⟩ => ⟨S4x4096x64, .f32⟩
  | .hbm, ⟨43, _⟩ => ⟨S4x4096x768, .f32⟩
  | .hbm, ⟨44, _⟩ => ⟨S1x1x768, .f32⟩
  | .hbm, ⟨45, _⟩ => ⟨S4x4096x768, .f32⟩
  | .hbm, ⟨46, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]

class Facts₀ : Prop where
  bcast_S64_S1x1x64_2 : S64.BroadcastsInDim S1x1x64 (![2] : Fin 1 → Fin S1x1x64.rank)
  bcast_S1x1x64_S4x4096x64_0_1_2 : S1x1x64.BroadcastsInDim S4x4096x64 (![0, 1, 2] : Fin 3 → Fin S4x4096x64.rank)
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)
  dot_S4x4096x768_S768x64_S4x4096x64_2_0_01_1_n_n_wf : DotDims.WF S4x4096x768 S768x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]
  dot_S4x4096x64_S64x768_S4x4096x768_2_0_01_1_n_n_wf : DotDims.WF S4x4096x64 S64x768 S4x4096x768 [2] [0] [0, 1] [1] [] []

variable [Facts₀]

def dot_S4x4096x768_S768x64_S4x4096x64_2_0_01_1_n_n : DotDims S4x4096x768 S768x64 S4x4096x64 where
  lhsContracting := [2]
  rhsContracting := [0]
  lhsNonContracting := [0, 1]
  rhsNonContracting := [1]
  lhsBatch := []
  rhsBatch := []
  wf := dot_S4x4096x768_S768x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf
def dot_S4x4096x64_S64x768_S4x4096x768_2_0_01_1_n_n : DotDims S4x4096x64 S64x768 S4x4096x768 where
  lhsContracting := [2]
  rhsContracting := [0]
  lhsNonContracting := [0, 1]
  rhsNonContracting := [1]
  lhsBatch := []
  rhsBatch := []
  wf := dot_S4x4096x64_S64x768_S4x4096x768_2_0_01_1_n_n_wf

class Facts : Prop extends Facts₀ where

variable [Facts]
-- ==== Proof.BitsFrame.lean ====
/-
  The run of `Kernel`'s @main, for any float values: two host joins, then two grid launches.

  Each launch is a pipeline over its grid. At every point the body reads whole input blocks (the block of the input
  rows, the joined weight matrix and the joined bias for the first launch; the query block, the transposed keys, the
  values, the output weights and the output bias for the second), computes, and stores whole output blocks; it also
  reads each output buffer before overwriting it, and that read is discarded. So what a point leaves in an output
  window's buffer is one pure function of that point's input blocks, and the inputs' buffers are left as found.
  From this the pipeline's own launch theorem gives, per launch, the arrays it leaves: the inputs as entered, each
  output the fold of its write-backs. Threading the buffer contents through the host joins and the two launches gives
  the contents of every unscoped buffer when @main returns (`W3`); the argument arrays are read back to their launch
  contents through that fold because no join and no launch writes one.
-/
import proofs.«151435_j77017353552430_2_alg».proof.Proof.Gen.Kernel.Launch
import proofs.«151435_j77017353552430_2_alg».proof.Proof.Gen.Kernel.Skeleton
import proofs.«151435_j77017353552430_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

-- the contents of the core's buffers when a launch is entered
variable (V : (c : Dev nD) → (b : Ref sig .tc) → Buf (Elt F) ((c : Thread nD τ).loc b))

/-! # The first launch: the three projections -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or not: where it
    was not fetched the block index has not moved since the last fetch, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x2048x768 := Rect.unit (s := S1x2048x768) ![0, 0, 0] S1x2048x768.size inb_S1x2048x768_S1x2048x768_0_0_0
abbrev rw0 : Rect S768x192 := Rect.unit (s := S768x192) ![0, 0] S768x192.size inb_S768x192_S768x192_0_0
abbrev rb0 : Rect S192 := Rect.unit (s := S192) ![0] S192.size inb_S192_S192_0
abbrev rq0 : Rect S1x2048x64 := Rect.unit (s := S1x2048x64) ![0, 0, 0] S1x2048x64.size inb_S1x2048x64_S1x2048x64_0_0_0
abbrev rk0 : Rect S1x64x2048 := Rect.unit (s := S1x64x2048) ![0, 0, 0] S1x64x2048.size inb_S1x64x2048_S1x64x2048_0_0_0

/-- What a point leaves in the query window's buffer: its one whole-block store, over the input blocks. -/
def out0_3 (x0 : Vec F S1x2048x768 .f32) (x1 : Vec F S768x192 .f32) (x2 : Vec F S192 .f32) : Vec F S1x2048x64 .bf16 :=
  View.canon [⟨rq0, k0_pay2 (View.ld x0 rx0) (View.ld x1 rw0) (View.ld x2 rb0)⟩]
/-- What a point leaves in the transposed-key window's buffer. -/
def out0_4 (x0 : Vec F S1x2048x768 .f32) (x1 : Vec F S768x192 .f32) (x2 : Vec F S192 .f32) : Vec F S1x64x2048 .bf16 :=
  View.canon [⟨rk0, k0_pay3 (View.ld x0 rx0) (View.ld x1 rw0) (View.ld x2 rb0)⟩]
/-- What a point leaves in the value window's buffer. -/
def out0_5 (x0 : Vec F S1x2048x768 .f32) (x1 : Vec F S768x192 .f32) (x2 : Vec F S192 .f32) : Vec F S1x2048x64 .bf16 :=
  View.canon [⟨rq0, k0_pay4 (View.ld x0 rx0) (View.ld x1 rw0) (View.ld x2 rb0)⟩]

/-- A whole-block store covers the buffer. -/
theorem cover0_q (p0 : Vec F S1x2048x64 .bf16) (y : S1x2048x64.Idx) :
    ∃ pc ∈ ([⟨rq0, p0⟩] : List (View.Piece (Elt F) S1x2048x64 .bf16)), y ∈ pc.1.set :=
  View.cover_of_tiled [⟨rq0, p0⟩] S1x2048x64.size (by rfl) y
theorem cover0_k (p0 : Vec F S1x64x2048 .bf16) (y : S1x64x2048.Idx) :
    ∃ pc ∈ ([⟨rk0, p0⟩] : List (View.Piece (Elt F) S1x64x2048 .bf16)), y ∈ pc.1.set :=
  View.cover_of_tiled [⟨rk0, p0⟩] S1x64x2048.size (by rfl) y

set_option maxHeartbeats 4000000 in
/-- The body on whole buffers: the inputs' at contents `x0 x1 x2`, the outputs' at anything. It returns with the
    inputs' as they were and each output's at its store over the inputs. -/
theorem sound_kernel0 (c : Dev nD) (E : Set ℕ) (i : grid0.Coords)
    (arg2 : Memref sig .tc .vmem S1x2048x768 .f32) (harg2 : arg2.IsWhole) (arg3 : Memref sig .tc .vmem S768x192 .f32) (harg3 : arg3.IsWhole)
    (arg4 : Memref sig .tc .vmem S192 .f32) (harg4 : arg4.IsWhole) (arg5 : Memref sig .tc .vmem S1x2048x64 .bf16) (harg5 : arg5.IsWhole)
    (arg6 : Memref sig .tc .vmem S1x64x2048 .bf16) (harg6 : arg6.IsWhole) (arg7 : Memref sig .tc .vmem S1x2048x64 .bf16) (harg7 : arg7.IsWhole)
    (x0 : Vec F S1x2048x768 .f32) (x1 : Vec F S768x192 .f32) (x2 : Vec F S192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_q _)
  isplitl [H4]
  · iexists _; isplitr
    swap; · iexact H4
    ipureintro
    exact View.read_writes_eq_canon _ _ _ (cover0_k _)
  iexists _; isplitr
  swap; · iexact H5
  ipureintro
  exact View.read_writes_eq_canon _ _ _ (cover0_q _)

/-! ## The first launch's proof data -/

/-- After the body at point `t`: each input's buffer at its block, each output's at its store over the input blocks.
    The arrays are as the launch finds them; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the launch's invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # The second launch: attention and the output projection -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rq1 : Rect S1x256x64 := Rect.unit (s := S1x256x64) ![0, 0, 0] S1x256x64.size inb_S1x256x64_S1x256x64_0_0_0
abbrev rk1 : Rect S1x64x4096 := Rect.unit (s := S1x64x4096) ![0, 0, 0] S1x64x4096.size inb_S1x64x4096_S1x64x4096_0_0_0
abbrev rv1 : Rect S1x4096x64 := Rect.unit (s := S1x4096x64) ![0, 0, 0] S1x4096x64.size inb_S1x4096x64_S1x4096x64_0_0_0
abbrev rw1 : Rect S64x768 := Rect.unit (s := S64x768) ![0, 0] S64x768.size inb_S64x768_S64x768_0_0
abbrev rb1 : Rect S768 := Rect.unit (s := S768) ![0] S768.size inb_S768_S768_0
abbrev ro1 : Rect S1x256x768 := Rect.unit (s := S1x256x768) ![0, 0, 0] S1x256x768.size inb_S1x256x768_S1x256x768_0_0_0

/-- What a point leaves in the output window's buffer: its one whole-block store, over the five input blocks. -/
def out1_5 (x0 : Vec F S1x256x64 .bf16) (x1 : Vec F S1x64x4096 .bf16) (x2 : Vec F S1x4096x64 .bf16) (x3 : Vec F S64x768 .f32)
    (x4 : Vec F S768 .f32) : Vec F S1x256x768 .f32 :=
  View.canon [⟨ro1, k1_pay1 (View.ld x0 rq1) (View.ld x1 rk1) (View.ld x2 rv1) (View.ld x3 rw1) (View.ld x4 rb1)⟩]

theorem cover1_o (p0 : Vec F S1x256x768 .f32) (y : S1x256x768.Idx) :
    ∃ pc ∈ ([⟨ro1, p0⟩] : List (View.Piece (Elt F) S1x256x768 .f32)), y ∈ pc.1.set :=
  View.cover_of_tiled [⟨ro1, p0⟩] S1x256x768.size (by rfl) y

set_option maxHeartbeats 4000000 in
/-- The body on whole buffers: the inputs' at contents `x0 … x4`, the output's at anything. It returns with the inputs'
    as they were and the output's at its store over the inputs. -/
theorem sound_kernel1 (c : Dev nD) (E : Set ℕ) (i : grid1.Coords)
    (arg2 : Memref sig .tc .vmem S1x256x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S64x768 .f32) (harg5 : arg5.IsWhole)
    (arg6 : Memref sig .tc .vmem S768 .f32) (harg6 : arg6.IsWhole) (arg7 : Memref sig .tc .vmem S1x256x768 .f32) (harg7 : arg7.IsWhole)
    (x0 : Vec F S1x256x64 .bf16) (x1 : Vec F S1x64x4096 .bf16) (x2 : Vec F S1x4096x64 .bf16) (x3 : Vec F S64x768 .f32) (x4 : Vec F S768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_out_kernel i arg2 harg2 arg3 harg3 arg4 harg4 arg5 harg5 arg6 harg6 arg7 harg7) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_o _)

/-- After the body at point `t`: each input's buffer at its block, the output's at its store over the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

/-! # The run of @main -/

/-- Core `c`'s buffers at launch. -/
abbrev W0 : Dev nD → Valuation τ sig (Elt F) := fun c b => (s₀ m ρ).mem ((c : Dev nD), b)
/-- After the two host joins (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch (what @main returns with). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The joins write only their two results, so any other buffer is as launched after them. -/
theorem W1_of (c : Dev nD) (b : Ref sig .tc) (hb : b ∉ ([main_v0, main_v1] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne (List.ne_of_not_mem_cons hb),
      StableHlo.devRef_ne_of_ne (List.ne_of_not_mem_cons (List.not_mem_of_not_mem_cons hb))⟩))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := (W3_arr m ρ c 3).trans (((dat1 (V2 m ρ) c).arrAt_in 3 rfl _).trans (A_eq1 (V2 m ρ) c 3))
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 4).trans (((dat1 (V2 m ρ) c).arrAt_in 4 rfl _).trans (A_eq1 (V2 m ρ) c 4))
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither join allocates a buffer. -/
theorem joins_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Launch 0 as a segment: entered with every unscoped buffer at the contents before it, left with them at the contents
    after it. Its arrays are split out of the unscoped buffers on entry and put back, at what the pipeline leaves, on
    exit; the generator register rides in the launch's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at the contents before it, left with them at the contents
    after it. Its arrays are split out of the unscoped buffers on entry and put back, at what the pipeline leaves, on
    exit; the generator register rides in the launch's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments: the joins, then the two launches. -/
abbrev segs : List (Pipeline.Seg (pcfgs (F := F)) adm (pdats m ρ) () defs₀ 𝒱₀ L lv) :=
  [ .host (hseg hostOps0 hostOps0_sub joins_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates without a fault, and
    any property of the final memory that follows from "every unscoped buffer holds `W3`" holds of it. -/
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- The nine argument arrays end as launched. -/
theorem args_kept (s : MemSt nD τ sig (Elt F))
    (h : ∀ c : Dev nD, ∀ b ∈ Pipeline.ucRefs τ sig, s.mem (((c : Thread nD τ)).1, b) = W3 m ρ c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) :=
  ⟨(h c _ (mem_uc main_arg0 (by decide))).trans (W3_main_arg0 m ρ c),
   (h c _ (mem_uc main_arg1 (by decide))).trans (W3_main_arg1 m ρ c),
   (h c _ (mem_uc main_arg2 (by decide))).trans (W3_main_arg2 m ρ c),
   (h c _ (mem_uc main_arg3 (by decide))).trans (W3_main_arg3 m ρ c),
   (h c _ (mem_uc main_arg4 (by decide))).trans (W3_main_arg4 m ρ c),
   (h c _ (mem_uc main_arg5 (by decide))).trans (W3_main_arg5 m ρ c),
   (h c _ (mem_uc main_arg6 (by decide))).trans (W3_main_arg6 m ρ c),
   (h c _ (mem_uc main_arg7 (by decide))).trans (W3_main_arg7 m ρ c),
   (h c _ (mem_uc main_arg8 (by decide))).trans (W3_main_arg8 m ρ c)⟩

/-- The frame: @main runs to the end without a fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_gen m ρ (fun s h c => args_kept m ρ s h c)

/-- The result array after the run is what the second launch's pipeline leaves in its output window's array. -/
theorem result_eq (s : MemSt nD τ sig (Elt F))
    (h : ∀ c : Dev nD, ∀ b ∈ Pipeline.ucRefs τ sig, s.mem (((c : Thread nD τ)).1, b) = W3 m ρ c b) (c : Dev nD) :
    s.mem ((c.tc : Thread nD τ).loc main_v3) = (dat1 (V2 m ρ) c).arrAt 5 cfg1.N :=
  (h c _ (mem_uc main_v3 (by decide))).trans (W3_arr m ρ c 5)

end Cert.Kernel.Fr

end
-- ==== Proof.IdealFrame.lean ====
/-
  The run of `KernelIdeal`'s @main, for any float values: two host joins, then two grid launches.

  Each launch is a pipeline over its grid. At every point the body reads whole input blocks (the block of the input
  rows, the joined weight matrix and the joined bias for the first launch; the query block, the transposed keys, the
  values, the output weights and the output bias for the second), computes, and stores whole output blocks; it also
  reads each output buffer before overwriting it, and that read is discarded. So what a point leaves in an output
  window's buffer is one pure function of that point's input blocks, and the inputs' buffers are left as found.
  From this the pipeline's own launch theorem gives, per launch, the arrays it leaves: the inputs as entered, each
  output the fold of its write-backs. Threading the buffer contents through the host joins and the two launches gives
  the contents of every unscoped buffer when @main returns (`W3`); the argument arrays are read back to their launch
  contents through that fold because no join and no launch writes one.
-/
import proofs.«151435_j77017353552430_2_alg».proof.Proof.Gen.KernelIdeal.Launch
import proofs.«151435_j77017353552430_2_alg».proof.Proof.Gen.KernelIdeal.Skeleton
import proofs.«151435_j77017353552430_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions

-- the contents of the core's buffers when a launch is entered
variable (V : (c : Dev nD) → (b : Ref sig .tc) → Buf (Elt F) ((c : Thread nD τ).loc b))

/-! # The first launch: the three projections -/

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, whether the point fetched it or not: where it
    was not fetched the block index has not moved since the last fetch, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev rx0 : Rect S1x2048x768 := Rect.unit (s := S1x2048x768) ![0, 0, 0] S1x2048x768.size inb_S1x2048x768_S1x2048x768_0_0_0
abbrev rw0 : Rect S768x192 := Rect.unit (s := S768x192) ![0, 0] S768x192.size inb_S768x192_S768x192_0_0
abbrev rb0 : Rect S192 := Rect.unit (s := S192) ![0] S192.size inb_S192_S192_0
abbrev rq0 : Rect S1x2048x64 := Rect.unit (s := S1x2048x64) ![0, 0, 0] S1x2048x64.size inb_S1x2048x64_S1x2048x64_0_0_0
abbrev rk0 : Rect S1x64x2048 := Rect.unit (s := S1x64x2048) ![0, 0, 0] S1x64x2048.size inb_S1x64x2048_S1x64x2048_0_0_0

/-- What a point leaves in the query window's buffer: its one whole-block store, over the input blocks. -/
def out0_3 (x0 : Vec F S1x2048x768 .f32) (x1 : Vec F S768x192 .f32) (x2 : Vec F S192 .f32) : Vec F S1x2048x64 .bf16 :=
  View.canon [⟨rq0, k0_pay2 (View.ld x0 rx0) (View.ld x1 rw0) (View.ld x2 rb0)⟩]
/-- What a point leaves in the transposed-key window's buffer. -/
def out0_4 (x0 : Vec F S1x2048x768 .f32) (x1 : Vec F S768x192 .f32) (x2 : Vec F S192 .f32) : Vec F S1x64x2048 .bf16 :=
  View.canon [⟨rk0, k0_pay3 (View.ld x0 rx0) (View.ld x1 rw0) (View.ld x2 rb0)⟩]
/-- What a point leaves in the value window's buffer. -/
def out0_5 (x0 : Vec F S1x2048x768 .f32) (x1 : Vec F S768x192 .f32) (x2 : Vec F S192 .f32) : Vec F S1x2048x64 .bf16 :=
  View.canon [⟨rq0, k0_pay4 (View.ld x0 rx0) (View.ld x1 rw0) (View.ld x2 rb0)⟩]

/-- A whole-block store covers the buffer. -/
theorem cover0_q (p0 : Vec F S1x2048x64 .bf16) (y : S1x2048x64.Idx) :
    ∃ pc ∈ ([⟨rq0, p0⟩] : List (View.Piece (Elt F) S1x2048x64 .bf16)), y ∈ pc.1.set :=
  View.cover_of_tiled [⟨rq0, p0⟩] S1x2048x64.size (by rfl) y
theorem cover0_k (p0 : Vec F S1x64x2048 .bf16) (y : S1x64x2048.Idx) :
    ∃ pc ∈ ([⟨rk0, p0⟩] : List (View.Piece (Elt F) S1x64x2048 .bf16)), y ∈ pc.1.set :=
  View.cover_of_tiled [⟨rk0, p0⟩] S1x64x2048.size (by rfl) y

set_option maxHeartbeats 4000000 in
/-- The body on whole buffers: the inputs' at contents `x0 x1 x2`, the outputs' at anything. It returns with the
    inputs' as they were and each output's at its store over the inputs. -/
theorem sound_kernel0 (c : Dev nD) (E : Set ℕ) (i : grid0.Coords)
    (arg2 : Memref sig .tc .vmem S1x2048x768 .f32) (harg2 : arg2.IsWhole) (arg3 : Memref sig .tc .vmem S768x192 .f32) (harg3 : arg3.IsWhole)
    (arg4 : Memref sig .tc .vmem S192 .f32) (harg4 : arg4.IsWhole) (arg5 : Memref sig .tc .vmem S1x2048x64 .bf16) (harg5 : arg5.IsWhole)
    (arg6 : Memref sig .tc .vmem S1x64x2048 .bf16) (harg6 : arg6.IsWhole) (arg7 : Memref sig .tc .vmem S1x2048x64 .bf16) (harg7 : arg7.IsWhole)
    (x0 : Vec F S1x2048x768 .f32) (x1 : Vec F S768x192 .f32) (x2 : Vec F S192 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2) ∗ owns (c : Thread nD τ) arg6 fullShare (out0_4 x0 x1 x2)
            ∗ owns (c : Thread nD τ) arg7 fullShare (out0_5 x0 x1 x2)) -∗ K ⟨⟩))
      ⊢ wp frame (wpE (defs₀ (F := F)) Variants.none c none) E (cc0__qkv_kernel i arg2 harg2 arg3 harg3 arg4 harg4 arg5 harg5 arg6 harg6 arg7 harg7) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_q _)
  isplitl [H4]
  · iexists _; isplitr
    swap; · iexact H4
    ipureintro
    exact View.read_writes_eq_canon _ _ _ (cover0_k _)
  iexists _; isplitr
  swap; · iexact H5
  ipureintro
  exact View.read_writes_eq_canon _ _ _ (cover0_q _)

/-! ## The first launch's proof data -/

/-- After the body at point `t`: each input's buffer at its block, each output's at its store over the input blocks.
    The arrays are as the launch finds them; nothing is owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
    | ⟨5, _⟩ => out0_5 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]
theorem after0_4 (c : Dev nD) (t : Fin cfg0.N) :
    (dat0 V c).after 4 t = out0_4 (iblk0 V c 0 t) (iblk0 V c 1 t) (iblk0 V c 2 t) := by dsimp only [dat0]
theorem after0_5 (c : Dev nD) (t : Fin cfg0.N) :
    (dat0 V c).after 5 t = out0_5 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

/-- The body at any point: the inputs' buffers hold their blocks, so the body's run applies; the launch's invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-! # The second launch: attention and the output projection -/

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev rq1 : Rect S1x256x64 := Rect.unit (s := S1x256x64) ![0, 0, 0] S1x256x64.size inb_S1x256x64_S1x256x64_0_0_0
abbrev rk1 : Rect S1x64x4096 := Rect.unit (s := S1x64x4096) ![0, 0, 0] S1x64x4096.size inb_S1x64x4096_S1x64x4096_0_0_0
abbrev rv1 : Rect S1x4096x64 := Rect.unit (s := S1x4096x64) ![0, 0, 0] S1x4096x64.size inb_S1x4096x64_S1x4096x64_0_0_0
abbrev rw1 : Rect S64x768 := Rect.unit (s := S64x768) ![0, 0] S64x768.size inb_S64x768_S64x768_0_0
abbrev rb1 : Rect S768 := Rect.unit (s := S768) ![0] S768.size inb_S768_S768_0
abbrev ro1 : Rect S1x256x768 := Rect.unit (s := S1x256x768) ![0, 0, 0] S1x256x768.size inb_S1x256x768_S1x256x768_0_0_0

/-- What a point leaves in the output window's buffer: its one whole-block store, over the five input blocks. -/
def out1_5 (x0 : Vec F S1x256x64 .bf16) (x1 : Vec F S1x64x4096 .bf16) (x2 : Vec F S1x4096x64 .bf16) (x3 : Vec F S64x768 .f32)
    (x4 : Vec F S768 .f32) : Vec F S1x256x768 .f32 :=
  View.canon [⟨ro1, k1_pay1 (View.ld x0 rq1) (View.ld x1 rk1) (View.ld x2 rv1) (View.ld x3 rw1) (View.ld x4 rb1)⟩]

theorem cover1_o (p0 : Vec F S1x256x768 .f32) (y : S1x256x768.Idx) :
    ∃ pc ∈ ([⟨ro1, p0⟩] : List (View.Piece (Elt F) S1x256x768 .f32)), y ∈ pc.1.set :=
  View.cover_of_tiled [⟨ro1, p0⟩] S1x256x768.size (by rfl) y

set_option maxHeartbeats 4000000 in
/-- The body on whole buffers: the inputs' at contents `x0 … x4`, the output's at anything. It returns with the inputs'
    as they were and the output's at its store over the inputs. -/
theorem sound_kernel1 (c : Dev nD) (E : Set ℕ) (i : grid1.Coords)
    (arg2 : Memref sig .tc .vmem S1x256x64 .bf16) (harg2 : arg2.IsWhole) (arg3 : Memref sig .tc .vmem S1x64x4096 .bf16) (harg3 : arg3.IsWhole)
    (arg4 : Memref sig .tc .vmem S1x4096x64 .bf16) (harg4 : arg4.IsWhole) (arg5 : Memref sig .tc .vmem S64x768 .f32) (harg5 : arg5.IsWhole)
    (arg6 : Memref sig .tc .vmem S768 .f32) (harg6 : arg6.IsWhole) (arg7 : Memref sig .tc .vmem S1x256x768 .f32) (harg7 : arg7.IsWhole)
    (x0 : Vec F S1x256x64 .bf16) (x1 : Vec F S1x64x4096 .bf16) (x2 : Vec F S1x4096x64 .bf16) (x3 : Vec F S64x768 .f32) (x4 : Vec F S768 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ (∃ d, owns (c : Thread nD τ) arg7 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
            ∗ owns (c : Thread nD τ) arg7 fullShare (out1_5 x0 x1 x2 x3 x4)) -∗ K ⟨⟩))
      ⊢ wp frame (wpE (defs₀ (F := F)) Variants.none c none) E (cc1__attn_out_kernel i arg2 harg2 arg3 harg3 arg4 harg4 arg5 harg5 arg6 harg6 arg7 harg7) K := by
  simp only [cc1__attn_out_kernel_eq_skeleton]; unfold cc1__attn_out_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_o _)

/-- After the body at point `t`: each input's buffer at its block, the output's at its store over the input blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem body_obligation1 (c : Dev nD) : BodyObligation (dat1 (F := F) V c) (defs₀ (F := F)) Variants.none () Set.univ := fun t => by
  rw [bigSep_W1, bigSep_W1]
  exact sound_body1 V c t

end Regions

/-! # The run of @main -/

/-- Core `c`'s buffers at launch. -/
abbrev W0 : Dev nD → Valuation τ sig (Elt F) := fun c b => (s₀ m ρ).mem ((c : Dev nD), b)
/-- After the two host joins (the first launch's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the first launch: its arrays at what its pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second launch (what @main returns with). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- The joins write only their two results, so any other buffer is as launched after them. -/
theorem W1_of (c : Dev nD) (b : Ref sig .tc) (hb : b ∉ ([main_v0, main_v1] : List (Ref sig .tc))) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.nary_writes, Finset.mem_singleton]
    exact ⟨StableHlo.devRef_ne_of_ne (List.ne_of_not_mem_cons hb),
      StableHlo.devRef_ne_of_ne (List.ne_of_not_mem_cons (List.not_mem_of_not_mem_cons hb))⟩))

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := W1_of m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := W1_of m ρ c main_arg1 (by decide)
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := W2_of_ne m ρ c main_arg2 (by decide)
    _ = W0 m ρ c (Proc.devRef .tc main_arg2) := W1_of m ρ c main_arg2 (by decide)
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := W2_of_ne m ρ c main_arg3 (by decide)
    _ = W0 m ρ c (Proc.devRef .tc main_arg3) := W1_of m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := W2_of_ne m ρ c main_arg4 (by decide)
    _ = W0 m ρ c (Proc.devRef .tc main_arg4) := W1_of m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := W2_of_ne m ρ c main_arg5 (by decide)
    _ = W0 m ρ c (Proc.devRef .tc main_arg5) := W1_of m ρ c main_arg5 (by decide)
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := W2_of_ne m ρ c main_arg6 (by decide)
    _ = W0 m ρ c (Proc.devRef .tc main_arg6) := W1_of m ρ c main_arg6 (by decide)
    _ = m ((c : Thread nD τ).loc main_arg6) := rfl

theorem W3_main_arg7 (c : Dev nD) : W3 m ρ c (Proc.devRef .tc main_arg7) = m ((c : Thread nD τ).loc main_arg7) :=
  calc W3 m ρ c (Proc.devRef .tc main_arg7)
    _ = W2 m ρ c (Proc.devRef .tc main_arg7) := (W3_arr m ρ c 3).trans (((dat1 (V2 m ρ) c).arrAt_in 3 rfl _).trans (A_eq1 (V2 m ρ) c 3))
    _ = W1 m ρ c (Proc.devRef .tc main_arg7) := W2_of_ne m ρ c main_arg7 (by decide)
    _ = W0 m ρ c (Proc.devRef .tc main_arg7) := W1_of m ρ c main_arg7 (by decide)
    _ = m ((c : Thread nD τ).loc main_arg7) := rfl

theorem W3_main_arg8 (c : Dev nD) : W3 m ρ c (Proc.devRef .tc main_arg8) = m ((c : Thread nD τ).loc main_arg8) :=
  calc W3 m ρ c (Proc.devRef .tc main_arg8)
    _ = W2 m ρ c (Proc.devRef .tc main_arg8) := (W3_arr m ρ c 4).trans (((dat1 (V2 m ρ) c).arrAt_in 4 rfl _).trans (A_eq1 (V2 m ρ) c 4))
    _ = W1 m ρ c (Proc.devRef .tc main_arg8) := W2_of_ne m ρ c main_arg8 (by decide)
    _ = W0 m ρ c (Proc.devRef .tc main_arg8) := W1_of m ρ c main_arg8 (by decide)
    _ = m ((c : Thread nD τ).loc main_arg8) := rfl

/-! ## The proof data family and the thread state -/

abbrev adm : (p : Fin 2) → (pcfgs (F := F) p).Adm := fun p => (cfgs p).toPCfg_adm
/-- Both pipelines' proof data, each at its launch's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- Neither join allocates a buffer. -/
theorem joins_fresh : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

set_option backward.isDefEq.respectTransparency.types false in
/-- Launch 0 as a segment: entered with every unscoped buffer at the contents before it, left with them at the contents
    after it. Its arrays are split out of the unscoped buffers on entry and put back, at what the pipeline leaves, on
    exit; the generator register rides in the launch's invariant and comes back; nothing is owed. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 as a segment: entered with every unscoped buffer at the contents before it, left with them at the contents
    after it. Its arrays are split out of the unscoped buffers on entry and put back, at what the pipeline leaves, on
    exit; the generator register rides in the launch's invariant and comes back; nothing is owed. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- @main's three segments: the joins, then the two launches. -/
abbrev segs : List (Pipeline.Seg (pcfgs (F := F)) adm (pdats m ρ) () defs₀ 𝒱₀ L lv) :=
  [ .host (hseg hostOps0 hostOps0_sub joins_fresh (W0 m ρ)),
    .region (reg0 m ρ),
    .region (reg1 m ρ) ]
theorem main_run (c : Dev nD) : main (F := F) c = Pipeline.Seg.run (segs m ρ) := (main_chain c).trans (by chain_rfl)

set_option backward.isDefEq.respectTransparency.types false in
/-- THE RUN. From any memory with zero counters every weakly fair execution of @main terminates without a fault, and
    any property of the final memory that follows from "every unscoped buffer holds `W3`" holds of it. -/
theorem run_gen {Q : PUnit × MemSt nD τ sig (Elt F) → Prop}
    (hQ : ∀ s : MemSt nD τ sig (Elt F), (∀ c : Dev nD, ∀ b ∈ Pipeline.ucRefs τ sig, s.mem (((c : Thread nD τ)).1, b) = W3 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := hQ)

/-- The nine argument arrays end as launched. -/
theorem args_kept (s : MemSt nD τ sig (Elt F))
    (h : ∀ c : Dev nD, ∀ b ∈ Pipeline.ucRefs τ sig, s.mem (((c : Thread nD τ)).1, b) = W3 m ρ c b) (c : Dev nD) :
    s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8) :=
  ⟨(h c _ (mem_uc main_arg0 (by decide))).trans (W3_main_arg0 m ρ c),
   (h c _ (mem_uc main_arg1 (by decide))).trans (W3_main_arg1 m ρ c),
   (h c _ (mem_uc main_arg2 (by decide))).trans (W3_main_arg2 m ρ c),
   (h c _ (mem_uc main_arg3 (by decide))).trans (W3_main_arg3 m ρ c),
   (h c _ (mem_uc main_arg4 (by decide))).trans (W3_main_arg4 m ρ c),
   (h c _ (mem_uc main_arg5 (by decide))).trans (W3_main_arg5 m ρ c),
   (h c _ (mem_uc main_arg6 (by decide))).trans (W3_main_arg6 m ρ c),
   (h c _ (mem_uc main_arg7 (by decide))).trans (W3_main_arg7 m ρ c),
   (h c _ (mem_uc main_arg8 (by decide))).trans (W3_main_arg8 m ρ c)⟩

/-- The frame: @main runs to the end without a fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_gen m ρ (fun s h c => args_kept m ρ s h c)

/-- The result array after the run is what the second launch's pipeline leaves in its output window's array. -/
theorem result_eq (s : MemSt nD τ sig (Elt F))
    (h : ∀ c : Dev nD, ∀ b ∈ Pipeline.ucRefs τ sig, s.mem (((c : Thread nD τ)).1, b) = W3 m ρ c b) (c : Dev nD) :
    s.mem ((c.tc : Thread nD τ).loc main_v3) = (dat1 (V2 m ρ) c).arrAt 5 cfg1.N :=
  (h c _ (mem_uc main_v3 (by decide))).trans (W3_arr m ρ c 5)

end Cert.KernelIdeal.Fr

end
-- ==== Proof.HostJoin.lean ====
/-
  The two host joins that feed the first launch, read at an index.

  The three projection weight matrices are laid side by side into one 768 × 192 matrix and the three bias vectors end
  to end into one vector of 192: column (or entry) `d` of the join is column `d` of the query weights, column `d + 64`
  is column `d` of the key weights, column `d + 128` is column `d` of the value weights. After the joins every other
  buffer still holds its launch contents.
-/
import proofs.«151435_j77017353552430_2_alg».proof.Proof.IdealFrame
import Idealize.ShloMosaic.Lib.Pipeline.Value
import Idealize.ShloMosaic.Lib.ValueIdx
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem Idealize.ShloMosaic.StableHlo

/-- Three 768 × 64 matrices side by side. -/
def joinW (Wq Wk Wv : S768x64.Idx → EReal) : S768x192.Idx → EReal :=
  concatenate S768x192 1 [⟨S768x64, Wq⟩, ⟨S768x64, Wk⟩, ⟨S768x64, Wv⟩] concatenates_S768x64_S768x64_S768x64_S768x192_d1

/-- Three vectors of 64 end to end. -/
def joinB (bq bk bv : S64.Idx → EReal) : S192.Idx → EReal :=
  concatenate S192 0 [⟨S64, bq⟩, ⟨S64, bk⟩, ⟨S64, bv⟩] concatenates_S64_S64_S64_S192_d0

/-- Column `d + off` of the joined weights is column `d` of the piece that starts at `off`. -/
theorem joinW_q (Wq Wk Wv : S768x64.Idx → EReal) (h : Fin 768) (d : Fin 64) :
    joinW Wq Wk Wv (ix2 h (⟨d.val, by omega⟩ : Fin 192)) = Wq (ix2 h d) := by
  unfold joinW
  refine concatenate_apply_piece (t := S768x192) (a := (1 : Fin 2)) (k := 0) (hk := by simp) (s₁ := S768x64) (x₁ := Wq)
    (hxk := rfl) (hr := rfl) (pre := 0) (hpre := by first | (simp; done) | rfl) (i := ix2 h d) (hi := ?_) (ha := ?_) ..
  · intro b hb
    match b with
    | ⟨0, _⟩ => rfl
    | ⟨1, _⟩ => exact absurd rfl hb
  · show 0 + d.val = d.val; omega
theorem joinW_k (Wq Wk Wv : S768x64.Idx → EReal) (h : Fin 768) (d : Fin 64) :
    joinW Wq Wk Wv (ix2 h (⟨d.val + 64, by omega⟩ : Fin 192)) = Wk (ix2 h d) := by
  unfold joinW
  refine concatenate_apply_piece (t := S768x192) (a := (1 : Fin 2)) (k := 1) (hk := by simp) (s₁ := S768x64) (x₁ := Wk)
    (hxk := rfl) (hr := rfl) (pre := 64) (hpre := by first | (simp; done) | rfl) (i := ix2 h d) (hi := ?_) (ha := ?_) ..
  · intro b hb
    match b with
    | ⟨0, _⟩ => rfl
    | ⟨1, _⟩ => exact absurd rfl hb
  · show 64 + d.val = d.val + 64; omega
theorem joinW_v (Wq Wk Wv : S768x64.Idx → EReal) (h : Fin 768) (d : Fin 64) :
    joinW Wq Wk Wv (ix2 h (⟨d.val + 128, by omega⟩ : Fin 192)) = Wv (ix2 h d) := by
  unfold joinW
  refine concatenate_apply_piece (t := S768x192) (a := (1 : Fin 2)) (k := 2) (hk := by simp) (s₁ := S768x64) (x₁ := Wv)
    (hxk := rfl) (hr := rfl) (pre := 128) (hpre := by first | (simp; done) | rfl) (i := ix2 h d) (hi := ?_) (ha := ?_) ..
  · intro b hb
    match b with
    | ⟨0, _⟩ => rfl
    | ⟨1, _⟩ => exact absurd rfl hb
  · show 128 + d.val = d.val + 128; omega

/-- Entry `d + off` of the joined bias is entry `d` of the piece that starts at `off`. -/
theorem joinB_q (bq bk bv : S64.Idx → EReal) (d : Fin 64) :
    joinB bq bk bv (ix1 (⟨d.val, by omega⟩ : Fin 192)) = bq (ix1 d) := by
  unfold joinB
  refine concatenate_apply_piece (t := S192) (a := (0 : Fin 1)) (k := 0) (hk := by simp) (s₁ := S64) (x₁ := bq)
    (hxk := rfl) (hr := rfl) (pre := 0) (hpre := by first | (simp; done) | rfl) (i := ix1 d) (hi := ?_) (ha := ?_) ..
  · intro b hb
    match b with
    | ⟨0, _⟩ => exact absurd rfl hb
  · show 0 + d.val = d.val; omega
theorem joinB_k (bq bk bv : S64.Idx → EReal) (d : Fin 64) :
    joinB bq bk bv (ix1 (⟨d.val + 64, by omega⟩ : Fin 192)) = bk (ix1 d) := by
  unfold joinB
  refine concatenate_apply_piece (t := S192) (a := (0 : Fin 1)) (k := 1) (hk := by simp) (s₁ := S64) (x₁ := bk)
    (hxk := rfl) (hr := rfl) (pre := 64) (hpre := by first | (simp; done) | rfl) (i := ix1 d) (hi := ?_) (ha := ?_) ..
  · intro b hb
    match b with
    | ⟨0, _⟩ => exact absurd rfl hb
  · show 64 + d.val = d.val + 64; omega
theorem joinB_v (bq bk bv : S64.Idx → EReal) (d : Fin 64) :
    joinB bq bk bv (ix1 (⟨d.val + 128, by omega⟩ : Fin 192)) = bv (ix1 d) := by
  unfold joinB
  refine concatenate_apply_piece (t := S192) (a := (0 : Fin 1)) (k := 2) (hk := by simp) (s₁ := S64) (x₁ := bv)
    (hxk := rfl) (hr := rfl) (pre := 128) (hpre := by first | (simp; done) | rfl) (i := ix1 d) (hi := ?_) (ha := ?_) ..
  · intro b hb
    match b with
    | ⟨0, _⟩ => exact absurd rfl hb
  · show 128 + d.val = d.val + 128; omega

variable (m : (ℓ : Loc nD τ sig) → Buf (Elt Ideal) ℓ) (ρ : Dev nD → PrngReg)

/-- After the joins the joined-weights buffer holds the join of the three weight arguments. -/
theorem V1_v0 (c : Dev nD) : (V1 m ρ c main_v0 : S768x192.Idx → EReal)
    = joinW (m ((c : Thread nD τ).loc main_arg1)) (m ((c : Thread nD τ).loc main_arg3)) (m ((c : Thread nD τ).loc main_arg5)) := by
  show StableHlo.after hostOps0 (W0 m ρ c) (Proc.devRef .tc main_v0) = _
  after_results; rfl

/-- and the joined-bias buffer the join of the three bias arguments. -/
theorem V1_v1 (c : Dev nD) : (V1 m ρ c main_v1 : S192.Idx → EReal)
    = joinB (m ((c : Thread nD τ).loc main_arg2)) (m ((c : Thread nD τ).loc main_arg4)) (m ((c : Thread nD τ).loc main_arg6)) := by
  show StableHlo.after hostOps0 (W0 m ρ c) (Proc.devRef .tc main_v1) = _
  after_results; rfl

/-- The input rows are as launched. -/
theorem V1_arg0 (c : Dev nD) : V1 m ρ c main_arg0 = m ((c : Thread nD τ).loc main_arg0) :=
  W1_of m ρ c main_arg0 (by decide)

end Cert.KernelIdeal.Val

end
-- ==== Proof.LibPlainDot.lean ====
/-
  A plain matrix product read at an index.

  The dimension numbers of an [a, c] × [c, b] → [a, b] product contract the left operand's axis 1 with the right
  operand's axis 0 and have no batch axis. At result index (p, q) and contraction position k the left operand is
  read at (p, k) and the right operand at (k, q), so the sum over the contraction shape's one-axis index set is the
  sum over k : Fin c of lhs (p, k) * rhs (k, q) — in any commutative additive monoid with a product, the extended
  reals included. The statement is over variable extents; a printed record with these six lists is this one by
  reflexivity.
-/
import Idealize.ShloMosaic.Lib.ValueIdx
import Idealize.ShloMosaic.PureOps.Ideal.Laws

noncomputable section

namespace Cert.Lib.PlainDot

open Idealize.ShloMosaic Idealize.ShloMosaic.ValueIdx
open scoped BigOperators

variable {a c b : Nat}

/-- The dimension numbers of the plain product [a, c] × [c, b] → [a, b]. -/
abbrev dims (wf : DotDims.WF ⟨2, ![a, c]⟩ ⟨2, ![c, b]⟩ ⟨2, ![a, b]⟩ [1] [0] [0] [1] [] []) :
    DotDims ⟨2, ![a, c]⟩ ⟨2, ![c, b]⟩ ⟨2, ![a, b]⟩ where
  lhsContracting := [1]
  rhsContracting := [0]
  lhsNonContracting := [0]
  rhsNonContracting := [1]
  lhsBatch := []
  rhsBatch := []
  wf := wf

variable (wf : DotDims.WF ⟨2, ![a, c]⟩ ⟨2, ![c, b]⟩ ⟨2, ![a, b]⟩ [1] [0] [0] [1] [] [])

/-- The left operand's row is the result's row. -/
theorem lhs_row (i : (⟨2, ![a, b]⟩ : Shape).Idx) (k : (dims wf).contr.Idx) :
    ((dims wf).lhsIdx i k 0).val = (i 0).val := by
  unfold DotDims.lhsIdx
  rw [dif_neg (show ¬(0 : Fin 2) ∈ (dims wf).lhsBatch from List.not_mem_nil),
    dif_pos (show (0 : Fin 2) ∈ (dims wf).lhsNonContracting from List.mem_singleton.mpr rfl)]
  rfl

/-- The left operand's column is the contraction position. -/
theorem lhs_col (i : (⟨2, ![a, b]⟩ : Shape).Idx) (k : (dims wf).contr.Idx) :
    ((dims wf).lhsIdx i k 1).val = (k ⟨0, Nat.one_pos⟩).val :=
  (dims wf).lhsIdx_val_of_single rfl i k

/-- The right operand's row is the contraction position. -/
theorem rhs_row (i : (⟨2, ![a, b]⟩ : Shape).Idx) (k : (dims wf).contr.Idx) :
    ((dims wf).rhsIdx i k 0).val = (k ⟨0, Nat.one_pos⟩).val :=
  (dims wf).rhsIdx_val_of_single rfl i k

/-- The right operand's column is the result's column. -/
theorem rhs_col (i : (⟨2, ![a, b]⟩ : Shape).Idx) (k : (dims wf).contr.Idx) :
    ((dims wf).rhsIdx i k 1).val = (i 1).val := by
  unfold DotDims.rhsIdx
  rw [dif_neg (show ¬(1 : Fin 2) ∈ (dims wf).rhsBatch from List.not_mem_nil),
    dif_pos (show (1 : Fin 2) ∈ (dims wf).rhsNonContracting from List.mem_singleton.mpr rfl)]
  rfl

/-- The product's sum at (p, q): over k, the left operand at (p, k) times the right operand at (k, q). -/
theorem sum_apply {M : Type*} [AddCommMonoid M] [Mul M] (lhs : (⟨2, ![a, c]⟩ : Shape).Idx → M)
    (rhs : (⟨2, ![c, b]⟩ : Shape).Idx → M) (p : Fin a) (q : Fin b) :
    ∑ k : (dims wf).contr.Idx, lhs ((dims wf).lhsIdx (ix2 p q) k) * rhs ((dims wf).rhsIdx (ix2 p q) k)
      = ∑ k : Fin c, lhs (ix2 p k) * rhs (ix2 k q) := by
  rw [← Equiv.sum_comp (contrEquiv1 (dims wf) c rfl rfl).symm]
  refine Finset.sum_congr rfl fun k _ => ?_
  have hk := contrEquiv1_symm_val (dims wf) c rfl rfl k
  have el : (dims wf).lhsIdx (ix2 p q) ((contrEquiv1 (dims wf) c rfl rfl).symm k) = ix2 p k :=
    funext fun ax => Fin.ext (by
      match ax with
      | ⟨0, _⟩ => exact lhs_row wf _ _
      | ⟨1, _⟩ => exact (lhs_col wf _ _).trans hk)
  have er : (dims wf).rhsIdx (ix2 p q) ((contrEquiv1 (dims wf) c rfl rfl).symm k) = ix2 k q :=
    funext fun ax => Fin.ext (by
      match ax with
      | ⟨0, _⟩ => exact (rhs_row wf _ _).trans hk
      | ⟨1, _⟩ => exact rhs_col wf _ _)
  rw [el, er]

/-- A kernel's product into a zero accumulator, at the exact values, read at (p, q). -/
theorem matmul_zero_apply {φ₁ φ₂ : FTy} (prec : Option ContractPrecision) (lhs : FVec Ideal ⟨2, ![a, c]⟩ φ₁)
    (rhs : FVec Ideal ⟨2, ![c, b]⟩ φ₂) (p : Fin a) (q : Fin b) :
    matmul (dims wf) prec lhs rhs (constant ⟨2, ![a, b]⟩ .f32 0x00000000#32) (ix2 p q)
      = ∑ k : Fin c, lhs (ix2 p k) * rhs (ix2 k q) :=
  (Ideal.matmul_constant_zero_apply (dims wf) prec lhs rhs (ix2 p q)).trans (sum_apply wf lhs rhs p q)

/-- The host's product, at the exact values, read at (p, q). -/
theorem dotGeneral_apply {φ₁ φ₂ : FTy} (prec : Option ContractPrecision) (lhs : FVec Ideal ⟨2, ![a, c]⟩ φ₁)
    (rhs : FVec Ideal ⟨2, ![c, b]⟩ φ₂) (p : Fin a) (q : Fin b) :
    Host.dotGeneral (dims wf) prec lhs rhs (ix2 p q) = ∑ k : Fin c, lhs (ix2 p k) * rhs (ix2 k q) :=
  (Ideal.dotGeneral_apply (dims wf) prec _ lhs rhs (ix2 p q)).trans (sum_apply wf lhs rhs p q)

end Cert.Lib.PlainDot

end
-- ==== Proof.LibUnitAxis.lean ====
/-
  A leading unit axis read at an index.

  A block of shape [1, h, w] and the matrix of shape [h, w] with the same entries in row-major order: viewing the
  block as the matrix reads (0, r, c) at (r, c), and storing the matrix as a block reads (r, c) at (·, r, c). For any
  element type and any extents.
-/
import Idealize.ShloMosaic.Lib.Pipeline.Value
import Idealize.ShloMosaic.Lib.ValueIdx

noncomputable section

namespace Cert.Lib.UnitAxis

open Idealize.ShloMosaic Idealize.ShloMosaic.ValueIdx

/-- A block [1, h, w] viewed [h, w] reads (0, r, c) at (r, c). -/
theorem drop_apply {h w : Nat} {α : Type} (v : (⟨3, ![1, h, w]⟩ : Shape).Idx → α)
    (hc : (⟨3, ![1, h, w]⟩ : Shape).ShapeCasts ⟨2, ![h, w]⟩) (r : Fin h) (c : Fin w) :
    shapeCast ⟨2, ![h, w]⟩ v hc (ix2 r c) = v (ix3 (0 : Fin 1) r c) :=
  shapeCast_apply v hc _ _ (by
    rw [Shape.rowMajor_val_three, Shape.rowMajor_val_two]
    show (0 * h + r.val) * w + c.val = r.val * w + c.val
    rw [Nat.zero_mul, Nat.zero_add])

/-- An [h, w] value stored as a block [1, h, w] reads (r, c) at (u, r, c). -/
theorem add_apply {h w : Nat} {α : Type} (v : (⟨2, ![h, w]⟩ : Shape).Idx → α)
    (hc : (⟨2, ![h, w]⟩ : Shape).ShapeCasts ⟨3, ![1, h, w]⟩) (u : Fin 1) (r : Fin h) (c : Fin w) :
    shapeCast ⟨3, ![1, h, w]⟩ v hc (ix3 u r c) = v (ix2 r c) :=
  shapeCast_apply v hc _ _ (by
    have hu : u.val = 0 := by omega
    rw [Shape.rowMajor_val_three, Shape.rowMajor_val_two]
    show r.val * w + c.val = (u.val * h + r.val) * w + c.val
    rw [hu, Nat.zero_mul, Nat.zero_add])

end Cert.Lib.UnitAxis

end
-- ==== Proof.LibRowBroadcasts.lean ====
/-
  Rows, columns and bias vectors broadcast, read at an index.

  The complements of the keepdims column forms: a `1 × b` row broadcast down `a` rows as a vector broadcast and as a
  dimension broadcast, an `a × 1` column broadcast across `c` columns as a dimension broadcast — each reads, at
  `(p, q)`, the operand at its one free coordinate — and the fact that a length-`b` vector cast to a `1 × b` row is the
  same array as that vector broadcast along dimension 1 (two spellings of "add a leading unit axis"). For any element
  type and any extents.
-/
import Idealize.ShloMosaic.Lib.Pipeline.Value
import Idealize.ShloMosaic.Lib.ValueIdx

noncomputable section

namespace Cert.Lib.Rows

open Idealize.ShloMosaic Idealize.ShloMosaic.ValueIdx

variable {a c b : Nat}

/-- A `1 × b` row broadcast down the rows reads, at `(p, q)`, the row at `q`. -/
theorem bcastRow_apply {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- An `a × 1` column broadcast in dimensions `[0, 1]` reads, at `(p, k)`, the column at `p`. -/
theorem dimCol_apply {α : Type} (v : (⟨2, ![a, 1]⟩ : Shape).Idx → α)
    (h : (⟨2, ![a, 1]⟩ : Shape).BroadcastsInDim ⟨2, ![a, c]⟩ ![0, 1]) (p : Fin a) (k : Fin c) :
    broadcastInDim ⟨2, ![a, c]⟩ ![0, 1] h v (ix2 p k) = v (ix2 p (0 : Fin 1)) := by
  refine broadcastInDim_apply _ h v (ix2 p k) (ix2 p (0 : Fin 1)) fun ax => ?_
  match ax with
  | ⟨0, _⟩ =>
    show p.val = if a = 1 then 0 else p.val
    split
    · have := p.isLt; omega
    · rfl
  | ⟨1, _⟩ =>
    show (0 : Nat) = if (1 : Nat) = 1 then 0 else k.val
    rw [if_pos rfl]

/-- A `1 × b` row broadcast in dimensions `[0, 1]` reads, at `(p, q)`, the row at `q`. -/
theorem dimRow_apply {α : Type} (v : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h v (ix2 p q) = v (ix2 (0 : Fin 1) q) := by
  refine broadcastInDim_apply _ h v (ix2 p q) (ix2 (0 : Fin 1) q) fun ax => ?_
  match ax with
  | ⟨0, _⟩ =>
    show (0 : Nat) = if (1 : Nat) = 1 then 0 else p.val
    rw [if_pos rfl]
  | ⟨1, _⟩ =>
    show q.val = if b = 1 then 0 else q.val
    split
    · have := q.isLt; omega
    · rfl

/-- A length-`b` vector cast to a `1 × b` row is the vector broadcast along dimension 1: both read, at `(·, q)`, the
    vector at `q`. -/
theorem castRow_eq_dimRow {α : Type} (v : (⟨1, ![b]⟩ : Shape).Idx → α)
    (hc : (⟨1, ![b]⟩ : Shape).ShapeCasts ⟨2, ![1, b]⟩)
    (hb : (⟨1, ![b]⟩ : Shape).BroadcastsInDim ⟨2, ![1, b]⟩ ![1]) :
    shapeCast ⟨2, ![1, b]⟩ v hc = broadcastInDim ⟨2, ![1, b]⟩ ![1] hb v := by
  funext j
  obtain ⟨u, q, rfl⟩ : ∃ (u : Fin 1) (q : Fin b), j = ix2 u q := ⟨j 0, j 1, eq_ix2 j⟩
  have hu : u.val = 0 := by omega
  have e1 : shapeCast ⟨2, ![1, b]⟩ v hc (ix2 u q) = v (ix1 q) :=
    shapeCast_apply v hc _ _ (by
      rw [Shape.rowMajor_val_two, Shape.rowMajor_val_one]
      show q.val = u.val * b + q.val
      rw [hu, Nat.zero_mul, Nat.zero_add])
  have e2 : broadcastInDim ⟨2, ![1, b]⟩ ![1] hb v (ix2 u q) = v (ix1 q) :=
    broadcastInDim_apply _ hb v (ix2 u q) (ix1 q) fun ax => by
      match ax with
      | ⟨0, _⟩ =>
        show q.val = if b = 1 then 0 else q.val
        split
        · have := q.isLt; omega
        · rfl
  rw [e1, e2]

end Cert.Lib.Rows

end
-- ==== Proof.Pay0.lean ====
/-
  The first kernel's stored values read at an index, at the exact values.

  One block of 2048 input rows is multiplied by the fused 768 × 192 weight matrix and the fused bias is added to every
  row: entry (r, j) of the result is the sum over h of x (r, h) · W (h, j), plus b (j). The three stored arrays are the
  column ranges 0–63, 64–127 and 128–191 of that result (the middle one transposed), each under a leading unit axis; so
  each stored entry is the same sum at column d, d + 64 or d + 128. Rounding to a narrower format is the identity at the
  exact values.
-/
import proofs.«151435_j77017353552430_2_alg».proof.Proof.Gen.KernelIdeal.Skeleton
import proofs.«151435_j77017353552430_2_alg».proof.Proof.LibPlainDot
import proofs.«151435_j77017353552430_2_alg».proof.Proof.LibUnitAxis
import proofs.«151435_j77017353552430_2_alg».proof.Proof.LibRowBroadcasts

set_option maxRecDepth 16384

noncomputable section

namespace Cert.KernelIdeal.Pay

open Cert.KernelIdeal Cert.KernelIdeal.Gen Idealize.ShloMosaic Idealize.ShloMosaic.ValueIdx
open scoped BigOperators

/-- Rounding to the narrower format is the identity at the exact values: a rounded array read at i is the array at i. -/
theorem round_apply {s : Shape} (a : FVec Ideal s .f32) (h : FTy.bits .bf16 < FTy.bits .f32) (i : s.Idx) :
    truncf (F := Ideal) .bf16 a h i = a i := rfl

/-- The product of the row block with the fused weights, into a zero accumulator, at (r, j): the sum over h of
    x (0, r, h) · W (h, j). The block's leading unit axis is dropped, the weights' cast is to their own shape. -/
theorem fused_matmul_apply (x0 : Vec Ideal S1x2048x768 .f32) (w : Vec Ideal S768x192 .f32)
    (h1 : S1x2048x768.ShapeCasts S2048x768) (h2 : S768x192.ShapeCasts S768x192)
    (hb : FTy.bits .bf16 < FTy.bits .f32) (r : Fin 2048) (j : Fin 192) :
    matmul dot_S2048x768_S768x192_S2048x192_1_0_0_1_n_n none
        (truncf (F := Ideal) .bf16 (shapeCast S2048x768 x0 h1) hb)
        (truncf (F := Ideal) .bf16 (shapeCast S768x192 w h2) hb)
        (constant (F := Ideal) S2048x192 .f32 0x00000000#32) (ix2 r j)
      = ∑ h : Fin 768, x0 (ix3 (0 : Fin 1) r h) * w (ix2 h j) := by
  refine (Cert.Lib.PlainDot.matmul_zero_apply
    Facts₀.dot_S2048x768_S768x192_S2048x192_1_0_0_1_n_n_wf none _ _ r j).trans ?_
  refine Finset.sum_congr rfl fun k _ => ?_
  have e1 : truncf (F := Ideal) .bf16 (shapeCast S2048x768 x0 h1) hb (ix2 r k) = x0 (ix3 (0 : Fin 1) r k) :=
    (round_apply _ hb _).trans (Cert.Lib.UnitAxis.drop_apply x0 h1 r k)
  have e2 : truncf (F := Ideal) .bf16 (shapeCast S768x192 w h2) hb (ix2 k j) = w (ix2 k j) :=
    (round_apply _ hb _).trans (congrFun (shapeCast_self w h2) (ix2 k j))
  rw [e1, e2]

/-- The bias vector as a 1 × 192 row broadcast down the 2048 rows reads, at (r, j), the bias at j. -/
theorem bias_rows_apply (b : Vec Ideal S192 .f32) (h1 : S192.ShapeCasts S192) (h2 : S192.ShapeCasts S1x192)
    (h3 : S1x192.Broadcasts S2048x192) (r : Fin 2048) (j : Fin 192) :
    broadcastTo S2048x192 (shapeCast S1x192 (shapeCast S192 b h1) h2) h3 (ix2 r j) = b (ix1 j) := by
  refine (Cert.Lib.Rows.bcastRow_apply _ h3 r j).trans ?_
  rw [shapeCast_self b h1]
  exact shapeCast_apply b h2 _ _ (by
    rw [Shape.rowMajor_val_one, Shape.rowMajor_val_two]
    show j.val = 0 * 192 + j.val
    omega)

/-- The fused projection at (r, j): the sum over h of x (0, r, h) · W (h, j), plus b (j). -/
theorem pay1_apply (x0 : Vec Ideal S1x2048x768 .f32) (w : Vec Ideal S768x192 .f32) (b : Vec Ideal S192 .f32)
    (r : Fin 2048) (j : Fin 192) :
    k0_pay1 (F := Ideal) x0 w b (ix2 r j)
      = (∑ h : Fin 768, x0 (ix3 (0 : Fin 1) r h) * w (ix2 h j)) + b (ix1 j) := by
  unfold k0_pay1
  refine (addf_apply _ _ (ix2 r j)).trans ?_
  rw [fused_matmul_apply, bias_rows_apply]

/-- A 2048 × 64 column range of the fused projection starting at column off, at (r, d): the projection at (r, d + off). -/
theorem slice_apply (x0 : Vec Ideal S1x2048x768 .f32) (w : Vec Ideal S768x192 .f32) (b : Vec Ideal S192 .f32)
    (off : Nat) (hoff : off + 64 ≤ 192) (hs : S2048x192.Slices ![0, off] S2048x64) (r : Fin 2048) (d : Fin 64) :
    extractStridedSlice S2048x64 ![0, off] (k0_pay1 (F := Ideal) x0 w b) hs (ix2 r d)
      = (∑ h : Fin 768, x0 (ix3 (0 : Fin 1) r h) * w (ix2 h (⟨d.val + off, by omega⟩ : Fin 192)))
          + b (ix1 (⟨d.val + off, by omega⟩ : Fin 192)) := by
  refine (extractStridedSlice_apply ![0, off] (k0_pay1 (F := Ideal) x0 w b) hs (ix2 r d)
    (ix2 r (⟨d.val + off, by omega⟩ : Fin 192)) fun a => ?_).trans (pay1_apply x0 w b r _)
  match a with
  | ⟨0, _⟩ =>
    show r.val = 0 + r.val
    omega
  | ⟨1, _⟩ =>
    show d.val + off = off + d.val
    omega

/-- The same column range after rounding, at (r, d). -/
theorem round_slice_apply (x0 : Vec Ideal S1x2048x768 .f32) (w : Vec Ideal S768x192 .f32) (b : Vec Ideal S192 .f32)
    (off : Nat) (hoff : off + 64 ≤ 192) (hs : S2048x192.Slices ![0, off] S2048x64)
    (hb : FTy.bits .bf16 < FTy.bits .f32) (r : Fin 2048) (d : Fin 64) :
    truncf (F := Ideal) .bf16 (extractStridedSlice S2048x64 ![0, off] (k0_pay1 (F := Ideal) x0 w b) hs) hb (ix2 r d)
      = (∑ h : Fin 768, x0 (ix3 (0 : Fin 1) r h) * w (ix2 h (⟨d.val + off, by omega⟩ : Fin 192)))
          + b (ix1 (⟨d.val + off, by omega⟩ : Fin 192)) :=
  (round_apply _ hb _).trans (slice_apply x0 w b off hoff hs r d)

/-- The stored query block at (·, r, d): the fused projection at column d. -/
theorem pay_q (x0 : Vec Ideal S1x2048x768 .f32) (w : Vec Ideal S768x192 .f32) (b : Vec Ideal S192 .f32)
    (u : Fin 1) (r : Fin 2048) (d : Fin 64) :
    k0_pay2 (F := Ideal) x0 w b (ix3 u r d)
      = (∑ h : Fin 768, x0 (ix3 (0 : Fin 1) r h) * w (ix2 h (⟨d.val, by omega⟩ : Fin 192)))
          + b (ix1 (⟨d.val, by omega⟩ : Fin 192)) := by
  unfold k0_pay2
  refine (Cert.Lib.UnitAxis.add_apply _ _ u r d).trans ?_
  exact round_slice_apply x0 w b 0 (by omega) _ _ r d

/-- The stored transposed key block at (·, d, r): the fused projection at row r, column d + 64. -/
theorem pay_kt (x0 : Vec Ideal S1x2048x768 .f32) (w : Vec Ideal S768x192 .f32) (b : Vec Ideal S192 .f32)
    (u : Fin 1) (d : Fin 64) (r : Fin 2048) :
    k0_pay3 (F := Ideal) x0 w b (ix3 u d r)
      = (∑ h : Fin 768, x0 (ix3 (0 : Fin 1) r h) * w (ix2 h (⟨d.val + 64, by omega⟩ : Fin 192)))
          + b (ix1 (⟨d.val + 64, by omega⟩ : Fin 192)) := by
  unfold k0_pay3
  refine (Cert.Lib.UnitAxis.add_apply _ _ u d r).trans ?_
  refine (transpose_apply [1, 0] _ _ (ix2 d r) (ix2 r d) fun a => ?_).trans
    (round_slice_apply x0 w b 64 (by omega) _ _ r d)
  match a with
  | ⟨0, _⟩ => rfl
  | ⟨1, _⟩ => rfl

/-- The stored value block at (·, r, d): the fused projection at column d + 128. -/
theorem pay_v (x0 : Vec Ideal S1x2048x768 .f32) (w : Vec Ideal S768x192 .f32) (b : Vec Ideal S192 .f32)
    (u : Fin 1) (r : Fin 2048) (d : Fin 64) :
    k0_pay4 (F := Ideal) x0 w b (ix3 u r d)
      = (∑ h : Fin 768, x0 (ix3 (0 : Fin 1) r h) * w (ix2 h (⟨d.val + 128, by omega⟩ : Fin 192)))
          + b (ix1 (⟨d.val + 128, by omega⟩ : Fin 192)) := by
  unfold k0_pay4
  refine (Cert.Lib.UnitAxis.add_apply _ _ u r d).trans ?_
  exact round_slice_apply x0 w b 128 (by omega) _ _ r d

end Cert.KernelIdeal.Pay

end
-- ==== Proof.Blocks0.lean ====
/-
  The three arrays the first launch leaves: queries, transposed keys, values, each as one function of the launch's
  input rows, joined weights and joined bias.

  The grid has a point per (batch entry, half of the sequence). A point's block of the query array is the 2048 rows of
  its half: entry (row, d) is the inner product of that input row with column `d` of the joined weights plus entry `d`
  of the joined bias. The key block is the same with columns 64 … 127, stored transposed (feature by row), the value
  block the same with columns 128 … 191. Every index of each array lies in exactly the block of the point that holds
  its batch entry and its half, so the array after the launch is that function everywhere.
-/
import proofs.«151435_j77017353552430_2_alg».proof.Proof.IdealFrame
import proofs.«151435_j77017353552430_2_alg».proof.Proof.Pay0
import Idealize.ShloMosaic.Lib.Pipeline.Value
import Idealize.ShloMosaic.Lib.ValueIdx

set_option maxRecDepth 16384

noncomputable section

namespace Cert.KernelIdeal.Val0

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- A buffer's contents as a function into the extended reals. -/
abbrev arr (S : Shape) (x : S.Idx → EReal) : S.Idx → EReal := x

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A whole-block store of a value computed from whole-block loads leaves that value of the blocks. -/
theorem out0_3_eq (x0 : Vec Ideal S1x2048x768 .f32) (x1 : Vec Ideal S768x192 .f32) (x2 : Vec Ideal S192 .f32) :
    out0_3 (F := Ideal) x0 x1 x2 = k0_pay2 x0 x1 x2 := by
  unfold out0_3
  rw [View.canon_unit_zero hz3]
  simp only [View.ld_unit_zero (S := S1x2048x768) hz3, View.ld_unit_zero (S := S768x192) hz2, View.ld_unit_zero (S := S192) hz1]
theorem out0_4_eq (x0 : Vec Ideal S1x2048x768 .f32) (x1 : Vec Ideal S768x192 .f32) (x2 : Vec Ideal S192 .f32) :
    out0_4 (F := Ideal) x0 x1 x2 = k0_pay3 x0 x1 x2 := by
  unfold out0_4
  rw [View.canon_unit_zero hz3]
  simp only [View.ld_unit_zero (S := S1x2048x768) hz3, View.ld_unit_zero (S := S768x192) hz2, View.ld_unit_zero (S := S192) hz1]
theorem out0_5_eq (x0 : Vec Ideal S1x2048x768 .f32) (x1 : Vec Ideal S768x192 .f32) (x2 : Vec Ideal S192 .f32) :
    out0_5 (F := Ideal) x0 x1 x2 = k0_pay4 x0 x1 x2 := by
  unfold out0_5
  rw [View.canon_unit_zero hz3]
  simp only [View.ld_unit_zero (S := S1x2048x768) hz3, View.ld_unit_zero (S := S768x192) hz2, View.ld_unit_zero (S := S192) hz1]

/-- Row `s` of batch entry `r` against column `d + off` of the joined weights, plus the joined bias there. -/
def projAt (off : Nat) (hoff : off + 64 ≤ 192) (X : S4x4096x768.Idx → EReal) (Wf : S768x192.Idx → EReal) (bf : S192.Idx → EReal)
    (r : Fin 4) (s : Fin 4096) (d : Fin 64) : EReal :=
  (∑ h : Fin 768, X (ix3 r s h) * Wf (ix2 h (⟨d.val + off, by omega⟩ : Fin 192))) + bf (ix1 (⟨d.val + off, by omega⟩ : Fin 192))

variable (V : (c : Dev nD) → (b : Ref sig .tc) → Buf (Elt Ideal) ((c : Thread nD τ).loc b)) (c : Dev nD)

/-- The query array the launch leaves. -/
def Gq : S4x4096x64.Idx → EReal := fun i =>
  projAt 0 (by omega) (V c main_arg0) (V c main_v0) (V c main_v1) (i 0) (i 1) (i 2)
/-- The transposed key array. -/
def Gkt : S4x64x4096.Idx → EReal := fun i =>
  projAt 64 (by omega) (V c main_arg0) (V c main_v0) (V c main_v1) (i 0) (i 2) (i 1)
/-- The value array. -/
def Gv : S4x4096x64.Idx → EReal := fun i =>
  projAt 128 (by omega) (V c main_arg0) (V c main_v0) (V c main_v1) (i 0) (i 1) (i 2)

/-- The printed index maps over the eight points: the input rows' block moves with the query block; the joined
    weights and bias have one block; the key block is the query block with its last two axes exchanged; the value
    block is the query block. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_1.index t (0 : Fin 2) = 0 ∧ win0_1.index t (1 : Fin 2) = 0
    ∧ win0_2.index t (0 : Fin 1) = 0 ∧ win0_3.index t (2 : Fin 3) = 0
    ∧ win0_3.index t (0 : Fin 3) ≤ 3 ∧ win0_3.index t (1 : Fin 3) ≤ 1
    ∧ win0_4.index t (0 : Fin 3) = win0_3.index t (0 : Fin 3) ∧ win0_4.index t (1 : Fin 3) = 0
    ∧ win0_4.index t (2 : Fin 3) = win0_3.index t (1 : Fin 3)
    ∧ win0_5.index t (0 : Fin 3) = win0_3.index t (0 : Fin 3) ∧ win0_5.index t (1 : Fin 3) = win0_3.index t (1 : Fin 3)
    ∧ win0_5.index t (2 : Fin 3) = 0 :=
  (by decide +kernel : ∀ t : Fin grid0.N, _)

/-- Every (batch entry, half) is some point's. -/
theorem idx_onto : ∀ (q0 : Fin 4) (q1 : Fin 2), ∃ t : Fin cfg0.N,
    win0_3.index t (0 : Fin 3) = q0.val ∧ win0_3.index t (1 : Fin 3) = q1.val :=
  (by decide +kernel : ∀ (q0 : Fin 4) (q1 : Fin 2), ∃ t : Fin grid0.N, win0_3.index t (0 : Fin 3) = q0.val ∧ win0_3.index t (1 : Fin 3) = q1.val)

/-- What point `t` writes back to the query array is block `t` of `Gq`. -/
theorem flushed3_eq (t : Fin cfg0.N) :
    (dat0 V c).flushed 3 t = ((cfg0.win 3).blk t).view.read (Elt Ideal) (Gq V c) := by
  show (cfg0.win 3).cut (grid0.coords t) ((dat0 V c).after 3 t) = _
  rw [after0_3, out0_3_eq]
  obtain ⟨e0, e1, e2, e3, e4, e5, e6, e7, e8, -⟩ := idx_facts t
  funext j
  obtain ⟨u, r, d, rfl⟩ : ∃ (u : Fin 1) (r : Fin 2048) (d : Fin 64), j = ix3 u r d := ⟨j 0, j 1, j 2, eq_ix3 j⟩
  have hu : u.val = 0 := by omega
  refine (Cert.KernelIdeal.Pay.pay_q (iblk0 V c 0 t) (iblk0 V c 1 t) (iblk0 V c 2 t) u r d).trans ?_
  show (∑ h : Fin 768, arr S4x4096x768 (V c main_arg0) (((cfg0.win 0).blk t).view.emb (ix3 (0 : Fin 1) r h))
        * arr S768x192 (V c main_v0) (((cfg0.win 1).blk t).view.emb (ix2 h (⟨d.val, by omega⟩ : Fin 192))))
      + arr S192 (V c main_v1) (((cfg0.win 2).blk t).view.emb (ix1 (⟨d.val, by omega⟩ : Fin 192)))
    = Gq V c (((cfg0.win 3).blk t).view.emb (ix3 u r d))
  unfold Gq projAt
  refine congrArg₂ (· + ·) (Finset.sum_congr rfl fun h _ => congrArg₂ (· * ·) (congrArg _ ?_) (congrArg _ ?_)) (congrArg _ ?_)
  · funext a; apply Fin.ext
    match a with
    | ⟨0, _⟩ => show win0_0.index t (0 : Fin 3) * 1 + 1 * 0 = win0_3.index t (0 : Fin 3) * 1 + 1 * u.val; omega
    | ⟨1, _⟩ => show win0_0.index t (1 : Fin 3) * 2048 + 1 * r.val = win0_3.index t (1 : Fin 3) * 2048 + 1 * r.val; omega
    | ⟨2, _⟩ => show win0_0.index t (2 : Fin 3) * 768 + 1 * h.val = h.val; omega
  · funext a; apply Fin.ext
    match a with
    | ⟨0, _⟩ => show win0_1.index t (0 : Fin 2) * 768 + 1 * h.val = h.val; omega
    | ⟨1, _⟩ => show win0_1.index t (1 : Fin 2) * 192 + 1 * d.val = (win0_3.index t (2 : Fin 3) * 64 + 1 * d.val) + 0; omega
  · funext a; apply Fin.ext
    match a with
    | ⟨0, _⟩ => show win0_2.index t (0 : Fin 1) * 192 + 1 * d.val = (win0_3.index t (2 : Fin 3) * 64 + 1 * d.val) + 0; omega

/-- What point `t` writes back to the transposed key array is block `t` of `Gkt`. -/
theorem flushed4_eq (t : Fin cfg0.N) :
    (dat0 V c).flushed 4 t = ((cfg0.win 4).blk t).view.read (Elt Ideal) (Gkt V c) := by
  show (cfg0.win 4).cut (grid0.coords t) ((dat0 V c).after 4 t) = _
  rw [after0_4, out0_4_eq]
  obtain ⟨e0, e1, e2, e3, e4, e5, e6, e7, e8, e9, e10, e11, -⟩ := idx_facts t
  funext j
  obtain ⟨u, d, r, rfl⟩ : ∃ (u : Fin 1) (d : Fin 64) (r : Fin 2048), j = ix3 u d r := ⟨j 0, j 1, j 2, eq_ix3 j⟩
  have hu : u.val = 0 := by omega
  refine (Cert.KernelIdeal.Pay.pay_kt (iblk0 V c 0 t) (iblk0 V c 1 t) (iblk0 V c 2 t) u d r).trans ?_
  show (∑ h : Fin 768, arr S4x4096x768 (V c main_arg0) (((cfg0.win 0).blk t).view.emb (ix3 (0 : Fin 1) r h))
        * arr S768x192 (V c main_v0) (((cfg0.win 1).blk t).view.emb (ix2 h (⟨d.val + 64, by omega⟩ : Fin 192))))
      + arr S192 (V c main_v1) (((cfg0.win 2).blk t).view.emb (ix1 (⟨d.val + 64, by omega⟩ : Fin 192)))
    = Gkt V c (((cfg0.win 4).blk t).view.emb (ix3 u d r))
  unfold Gkt projAt
  refine congrArg₂ (· + ·) (Finset.sum_congr rfl fun h _ => congrArg₂ (· * ·) (congrArg _ ?_) (congrArg _ ?_)) (congrArg _ ?_)
  · funext a; apply Fin.ext
    match a with
    | ⟨0, _⟩ => show win0_0.index t (0 : Fin 3) * 1 + 1 * 0 = win0_4.index t (0 : Fin 3) * 1 + 1 * u.val; omega
    | ⟨1, _⟩ => show win0_0.index t (1 : Fin 3) * 2048 + 1 * r.val = win0_4.index t (2 : Fin 3) * 2048 + 1 * r.val; omega
    | ⟨2, _⟩ => show win0_0.index t (2 : Fin 3) * 768 + 1 * h.val = h.val; omega
  · funext a; apply Fin.ext
    match a with
    | ⟨0, _⟩ => show win0_1.index t (0 : Fin 2) * 768 + 1 * h.val = h.val; omega
    | ⟨1, _⟩ => show win0_1.index t (1 : Fin 2) * 192 + 1 * (d.val + 64) = (win0_4.index t (1 : Fin 3) * 64 + 1 * d.val) + 64; omega
  · funext a; apply Fin.ext
    match a with
    | ⟨0, _⟩ => show win0_2.index t (0 : Fin 1) * 192 + 1 * (d.val + 64) = (win0_4.index t (1 : Fin 3) * 64 + 1 * d.val) + 64; omega

/-- What point `t` writes back to the value array is block `t` of `Gv`. -/
theorem flushed5_eq (t : Fin cfg0.N) :
    (dat0 V c).flushed 5 t = ((cfg0.win 5).blk t).view.read (Elt Ideal) (Gv V c) := by
  show (cfg0.win 5).cut (grid0.coords t) ((dat0 V c).after 5 t) = _
  rw [after0_5, out0_5_eq]
  obtain ⟨e0, e1, e2, e3, e4, e5, e6, e7, e8, e9, e10, e11, e12, e13, e14⟩ := idx_facts t
  funext j
  obtain ⟨u, r, d, rfl⟩ : ∃ (u : Fin 1) (r : Fin 2048) (d : Fin 64), j = ix3 u r d := ⟨j 0, j 1, j 2, eq_ix3 j⟩
  have hu : u.val = 0 := by omega
  refine (Cert.KernelIdeal.Pay.pay_v (iblk0 V c 0 t) (iblk0 V c 1 t) (iblk0 V c 2 t) u r d).trans ?_
  show (∑ h : Fin 768, arr S4x4096x768 (V c main_arg0) (((cfg0.win 0).blk t).view.emb (ix3 (0 : Fin 1) r h))
        * arr S768x192 (V c main_v0) (((cfg0.win 1).blk t).view.emb (ix2 h (⟨d.val + 128, by omega⟩ : Fin 192))))
      + arr S192 (V c main_v1) (((cfg0.win 2).blk t).view.emb (ix1 (⟨d.val + 128, by omega⟩ : Fin 192)))
    = Gv V c (((cfg0.win 5).blk t).view.emb (ix3 u r d))
  unfold Gv projAt
  refine congrArg₂ (· + ·) (Finset.sum_congr rfl fun h _ => congrArg₂ (· * ·) (congrArg _ ?_) (congrArg _ ?_)) (congrArg _ ?_)
  · funext a; apply Fin.ext
    match a with
    | ⟨0, _⟩ => show win0_0.index t (0 : Fin 3) * 1 + 1 * 0 = win0_5.index t (0 : Fin 3) * 1 + 1 * u.val; omega
    | ⟨1, _⟩ => show win0_0.index t (1 : Fin 3) * 2048 + 1 * r.val = win0_5.index t (1 : Fin 3) * 2048 + 1 * r.val; omega
    | ⟨2, _⟩ => show win0_0.index t (2 : Fin 3) * 768 + 1 * h.val = h.val; omega
  · funext a; apply Fin.ext
    match a with
    | ⟨0, _⟩ => show win0_1.index t (0 : Fin 2) * 768 + 1 * h.val = h.val; omega
    | ⟨1, _⟩ => show win0_1.index t (1 : Fin 2) * 192 + 1 * (d.val + 128) = (win0_5.index t (2 : Fin 3) * 64 + 1 * d.val) + 128; omega
  · funext a; apply Fin.ext
    match a with
    | ⟨0, _⟩ => show win0_2.index t (0 : Fin 1) * 192 + 1 * (d.val + 128) = (win0_5.index t (2 : Fin 3) * 64 + 1 * d.val) + 128; omega

/-! ## The blocks cover the arrays -/

theorem mem_blk3 (t : Fin cfg0.N) (i : S4x4096x64.Idx) :
    i ∈ ((cfg0.win 3).blk t).view.set ↔ ∀ a : Fin 3, win0_3.index t a * S1x2048x64.size a ≤ (i a).val
      ∧ (i a).val < win0_3.index t a * S1x2048x64.size a + S1x2048x64.size a := by
  show i ∈ ((View.whole main_v2_0).slice (win0_3.rect t)).set ↔ _
  rw [View.set_slice_whole, Rect.mem_set_unit]
  exact Iff.rfl
theorem mem_blk4 (t : Fin cfg0.N) (i : S4x64x4096.Idx) :
    i ∈ ((cfg0.win 4).blk t).view.set ↔ ∀ a : Fin 3, win0_4.index t a * S1x64x2048.size a ≤ (i a).val
      ∧ (i a).val < win0_4.index t a * S1x64x2048.size a + S1x64x2048.size a := by
  show i ∈ ((View.whole main_v2_1).slice (win0_4.rect t)).set ↔ _
  rw [View.set_slice_whole, Rect.mem_set_unit]
  exact Iff.rfl
theorem mem_blk5 (t : Fin cfg0.N) (i : S4x4096x64.Idx) :
    i ∈ ((cfg0.win 5).blk t).view.set ↔ ∀ a : Fin 3, win0_5.index t a * S1x2048x64.size a ≤ (i a).val
      ∧ (i a).val < win0_5.index t a * S1x2048x64.size a + S1x2048x64.size a := by
  show i ∈ ((View.whole main_v2_2).slice (win0_5.rect t)).set ↔ _
  rw [View.set_slice_whole, Rect.mem_set_unit]
  exact Iff.rfl

/-- Every index of the query array is in the block of the point of its batch entry and its half of the rows. -/
theorem cover3 (i : S4x4096x64.Idx) : ∃ t : Fin cfg0.N, (cfg0.win 3).flush t = true ∧ i ∈ ((cfg0.win 3).blk t).view.set := by
  have h0 : (i 0).val < 4 := (i 0).isLt
  have h1 : (i 1).val < 4096 := (i 1).isLt
  have h2 : (i 2).val < 64 := (i 2).isLt
  obtain ⟨t, q0, q1⟩ := idx_onto ⟨(i 0).val, h0⟩ ⟨(i 1).val / 2048, by omega⟩
  obtain ⟨-, -, -, -, -, -, e6, -⟩ := idx_facts t
  refine ⟨t, flush0_3 t, ?_⟩
  rw [mem_blk3]
  intro a
  match a with
  | ⟨0, _⟩ => show win0_3.index t (0 : Fin 3) * 1 ≤ (i 0).val ∧ (i 0).val < win0_3.index t (0 : Fin 3) * 1 + 1; simp only at q0; omega
  | ⟨1, _⟩ => show win0_3.index t (1 : Fin 3) * 2048 ≤ (i 1).val ∧ (i 1).val < win0_3.index t (1 : Fin 3) * 2048 + 2048; simp only at q1; omega
  | ⟨2, _⟩ => show win0_3.index t (2 : Fin 3) * 64 ≤ (i 2).val ∧ (i 2).val < win0_3.index t (2 : Fin 3) * 64 + 64; omega

/-- Every index of the transposed key array likewise (its rows are its last axis). -/
theorem cover4 (i : S4x64x4096.Idx) : ∃ t : Fin cfg0.N, (cfg0.win 4).flush t = true ∧ i ∈ ((cfg0.win 4).blk t).view.set := by
  have h0 : (i 0).val < 4 := (i 0).isLt
  have h1 : (i 1).val < 64 := (i 1).isLt
  have h2 : (i 2).val < 4096 := (i 2).isLt
  obtain ⟨t, q0, q1⟩ := idx_onto ⟨(i 0).val, h0⟩ ⟨(i 2).val / 2048, by omega⟩
  obtain ⟨-, -, -, -, -, -, -, -, -, e9, e10, e11, -⟩ := idx_facts t
  refine ⟨t, flush0_4 t, ?_⟩
  rw [mem_blk4]
  intro a
  match a with
  | ⟨0, _⟩ => show win0_4.index t (0 : Fin 3) * 1 ≤ (i 0).val ∧ (i 0).val < win0_4.index t (0 : Fin 3) * 1 + 1; simp only at q0; omega
  | ⟨1, _⟩ => show win0_4.index t (1 : Fin 3) * 64 ≤ (i 1).val ∧ (i 1).val < win0_4.index t (1 : Fin 3) * 64 + 64; omega
  | ⟨2, _⟩ => show win0_4.index t (2 : Fin 3) * 2048 ≤ (i 2).val ∧ (i 2).val < win0_4.index t (2 : Fin 3) * 2048 + 2048; simp only at q1; omega

/-- Every index of the value array likewise. -/
theorem cover5 (i : S4x4096x64.Idx) : ∃ t : Fin cfg0.N, (cfg0.win 5).flush t = true ∧ i ∈ ((cfg0.win 5).blk t).view.set := by
  have h0 : (i 0).val < 4 := (i 0).isLt
  have h1 : (i 1).val < 4096 := (i 1).isLt
  have h2 : (i 2).val < 64 := (i 2).isLt
  obtain ⟨t, q0, q1⟩ := idx_onto ⟨(i 0).val, h0⟩ ⟨(i 1).val / 2048, by omega⟩
  obtain ⟨-, -, -, -, -, -, -, -, -, -, -, -, e12, e13, e14⟩ := idx_facts t
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; simp only at q0; omega
  | ⟨1, _⟩ => show win0_5.index t (1 : Fin 3) * 2048 ≤ (i 1).val ∧ (i 1).val < win0_5.index t (1 : Fin 3) * 2048 + 2048; simp only at q1; omega
  | ⟨2, _⟩ => show win0_5.index t (2 : Fin 3) * 64 ≤ (i 2).val ∧ (i 2).val < win0_5.index t (2 : Fin 3) * 64 + 64; omega

/-! ## The three arrays after the launch -/

theorem final3 : (dat0 V c).arrAt 3 cfg0.N = Gq V c :=
  (dat0 V c).arrAt_eq_of_cover 3 (Gq V c) (fun t _ => flushed3_eq V c t) (cover3)
theorem final4 : (dat0 V c).arrAt 4 cfg0.N = Gkt V c :=
  (dat0 V c).arrAt_eq_of_cover 4 (Gkt V c) (fun t _ => flushed4_eq V c t) (cover4)
theorem final5 : (dat0 V c).arrAt 5 cfg0.N = Gv V c :=
  (dat0 V c).arrAt_eq_of_cover 5 (Gv V c) (fun t _ => flushed5_eq V c t) (cover5)

end Cert.KernelIdeal.Val0

end
-- ==== Proof.Spec.lean ====
/-
  Single-head softmax attention over a batch of sequences, as one function of its nine arrays, on the extended reals.

  For batch entry `r`, the rows of the input are projected three times (queries, keys, values): row `s` against column
  `d` of a weight matrix plus a bias. A query row's score against key row `j` is their inner product times the literal
  one eighth; the scores of one query row are turned into weights by subtracting the row's maximum (folded from minus
  infinity), exponentiating, and dividing by the sum of the exponentials; the context is the weighted sum of the value
  rows; the output row is the context against the output weights plus the output bias. Everything about one query row
  depends on that row only, so the whole is stated per query row (`outRow`) and `attn` instantiates it at the
  projections.

  Also here: the one numeric fact the comparison needs — one over the square root of sixty-four is one eighth.
-/
import Idealize.ShloMosaic.Lib.ValueIdx
import Idealize.ShloMosaic.PureOps.Ideal

noncomputable section

namespace Cert.Attn

open Idealize.ShloMosaic Idealize.ShloMosaic.ValueIdx
open scoped BigOperators

/-- One linear projection: row `s` of batch entry `r` against column `d` of the weights, plus the bias at `d`. -/
def proj (x : (⟨3, ![4, 4096, 768]⟩ : Shape).Idx → EReal) (W : (⟨2, ![768, 64]⟩ : Shape).Idx → EReal)
    (b : (⟨1, ![64]⟩ : Shape).Idx → EReal) (r : Fin 4) (s : Fin 4096) (d : Fin 64) : EReal :=
  (∑ h : Fin 768, x (ix3 r s h) * W (ix2 h d)) + b (ix1 d)

/-- The scaled score of one query row against key row `j`. -/
def scoreRow (qrow : Fin 64 → EReal) (k : Fin 4096 → Fin 64 → EReal) (j : Fin 4096) : EReal :=
  (∑ d : Fin 64, qrow d * k j d) * Ideal.ofBits .f32 0x3E000000#32

/-- The maximum of a row of scores, folded from minus infinity. -/
def rowmax (s : Fin 4096 → EReal) : EReal :=
  (Finset.univ : Finset (Fin 4096)).fold max (Ideal.ofBits .f32 0xFF800000#32) s

/-- The softmax weight of position `j` in a row of scores. -/
def weight (s : Fin 4096 → EReal) (j : Fin 4096) : EReal :=
  Ideal.div (Ideal.exp (s j - rowmax s)) (∑ k : Fin 4096, Ideal.exp (s k - rowmax s))

/-- The context of one query row: the value rows weighted by the row's softmax. -/
def ctxRow (qrow : Fin 64 → EReal) (k v : Fin 4096 → Fin 64 → EReal) (d : Fin 64) : EReal :=
  ∑ j : Fin 4096, weight (scoreRow qrow k) j * v j d

/-- The output of one query row: its context against the output weights, plus the output bias. -/
def outRow (qrow : Fin 64 → EReal) (k v : Fin 4096 → Fin 64 → EReal)
    (Wo : (⟨2, ![64, 768]⟩ : Shape).Idx → EReal) (bo : (⟨1, ![768]⟩ : Shape).Idx → EReal) (h : Fin 768) : EReal :=
  (∑ d : Fin 64, ctxRow qrow k v d * Wo (ix2 d h)) + bo (ix1 h)

/-- The whole attention layer, index by index. -/
def attn (x : (⟨3, ![4, 4096, 768]⟩ : Shape).Idx → EReal)
    (Wq : (⟨2, ![768, 64]⟩ : Shape).Idx → EReal) (bq : (⟨1, ![64]⟩ : Shape).Idx → EReal)
    (Wk : (⟨2, ![768, 64]⟩ : Shape).Idx → EReal) (bk : (⟨1, ![64]⟩ : Shape).Idx → EReal)
    (Wv : (⟨2, ![768, 64]⟩ : Shape).Idx → EReal) (bv : (⟨1, ![64]⟩ : Shape).Idx → EReal)
    (Wo : (⟨2, ![64, 768]⟩ : Shape).Idx → EReal) (bo : (⟨1, ![768]⟩ : Shape).Idx → EReal) :
    (⟨3, ![4, 4096, 768]⟩ : Shape).Idx → EReal := fun i =>
  outRow (proj x Wq bq (i 0) (i 1)) (proj x Wk bk (i 0)) (proj x Wv bv (i 0)) Wo bo (i 2)

/-! ## The scale -/

/-- The pattern of `64.0` denotes the real 64. -/
theorem ofBits_64 : Ideal.ofBits .f32 0x42800000#32 = ((64 : ℝ) : EReal) := by
  simp [Ideal.ofBits, Ideal.ieee, -EReal.coe_mul]; norm_num

/-- The pattern of `1.0` denotes 1. -/
theorem ofBits_one : Ideal.ofBits .f32 0x3F800000#32 = ((1 : ℝ) : EReal) := by
  simp [Ideal.ofBits, Ideal.ieee, -EReal.coe_mul]; norm_num

/-- The pattern of `0.125` denotes one eighth. -/
theorem ofBits_eighth : Ideal.ofBits .f32 0x3E000000#32 = ((1 / 8 : ℝ) : EReal) := by
  simp [Ideal.ofBits, Ideal.ieee, -EReal.coe_mul]; norm_num

/-- The pattern of minus infinity denotes the bottom of the extended reals. -/
theorem ofBits_ninf : Ideal.ofBits .f32 0xFF800000#32 = (⊥ : EReal) := by
  simp [Ideal.ofBits, Ideal.ieee]

/-- One over the square root of sixty-four is one eighth: 64 = 8², the square root of a square of a nonnegative real
    is that real, and dividing one by the nonzero real 8 multiplies by 1/8. -/
theorem scale_eq :
    Ideal.div (Ideal.ofBits .f32 0x3F800000#32) (Ideal.sqrt (Ideal.ofBits .f32 0x42800000#32))
      = Ideal.ofBits .f32 0x3E000000#32 := by
  have hs : Ideal.sqrt ((64 : ℝ) : EReal) = ((8 : ℝ) : EReal) := by
    show (if (64 : ℝ) < 0 then (⊥ : EReal) else ((Real.sqrt 64 : ℝ) : EReal)) = _
    rw [if_neg (by norm_num), show (64 : ℝ) = 8 ^ 2 by norm_num, Real.sqrt_sq (by norm_num)]
  rw [ofBits_64, hs, ofBits_one, ofBits_eighth, Ideal.div_coe (by norm_num : (8 : ℝ) ≠ 0), ← EReal.coe_mul, one_mul]

end Cert.Attn

end
-- ==== Proof.LibKeepdims.lean ====
/-
  Keepdims columns read at an index.

  A reduction along the rows of an `a × b` array that keeps the reduced axis leaves an `a × 1` column: the length-`a`
  vector of row statistics cast to that shape holds, at `(i, ·)`, the vector's entry `i` (both have row-major position
  `i`); and the column broadcast back along the rows holds, at `(p, c)`, the column's entry `p` (the unit axis is read at
  0, the other at the same coordinate). For any element type and any extents.
-/
import Idealize.ShloMosaic.Lib.Pipeline.Value
import Idealize.ShloMosaic.Lib.ValueIdx

noncomputable section

namespace Cert.Lib.Keepdims

open Idealize.ShloMosaic Idealize.ShloMosaic.ValueIdx

/-- A length-`a` vector cast to an `a × 1` column reads, at `(i, ·)`, the vector at `i`. -/
theorem col_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast along its rows reads, at `(p, c)`, the column at `p`. -/
theorem bcastCol_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims

end
-- ==== Proof.Pay1.lean ====
/-
  The second kernel's stored value read at an index, at the exact values.

  One block of 256 query rows against all 4096 key rows: the score of query row i against key row j is the inner
  product over the 64 features, times one eighth; a row of scores is turned into weights by subtracting the row's
  maximum (folded from minus infinity), exponentiating, and dividing by the row's sum of exponentials; the context
  row is the weighted sum of the value rows; the output row is the context against the 64 × 768 output weights, plus
  the output bias. Each stage is read at an index over a variable array, and the stored entry (·, i, h) is the
  specification's output row of query row i at h. Rounding to a narrower format is the identity at the exact values.
-/
import proofs.«151435_j77017353552430_2_alg».proof.Proof.Gen.KernelIdeal.Skeleton
import proofs.«151435_j77017353552430_2_alg».proof.Proof.Spec
import proofs.«151435_j77017353552430_2_alg».proof.Proof.LibPlainDot
import proofs.«151435_j77017353552430_2_alg».proof.Proof.LibUnitAxis
import proofs.«151435_j77017353552430_2_alg».proof.Proof.LibRowBroadcasts
import proofs.«151435_j77017353552430_2_alg».proof.Proof.LibKeepdims

set_option maxRecDepth 16384

noncomputable section

namespace Cert.KernelIdeal.Pay

open Cert.KernelIdeal Cert.KernelIdeal.Gen Idealize.ShloMosaic Idealize.ShloMosaic.ValueIdx
open scoped BigOperators

/-- Rounding to the narrower format is the identity at the exact values: a rounded array read at i is the array at i. -/
theorem round_bf16_apply {s : Shape} (a : FVec Ideal s .f32) (h : FTy.bits .bf16 < FTy.bits .f32) (i : s.Idx) :
    truncf (F := Ideal) .bf16 a h i = a i := rfl

/-! ## The scores -/

/-- The scaled score of query row i against key row j: the sum over the features d of q (0, i, d) · kt (0, d, j),
    times one eighth. -/
theorem scores_apply (q : FVec Ideal S1x256x64 .bf16) (kt : FVec Ideal S1x64x4096 .bf16)
    (h1 : S1x256x64.ShapeCasts S256x64) (h2 : S1x64x4096.ShapeCasts S64x4096) (i : Fin 256) (j : Fin 4096) :
    mulf (F := Ideal)
        (matmul dot_S256x64_S64x4096_S256x4096_1_0_0_1_n_n none (shapeCast S256x64 q h1) (shapeCast S64x4096 kt h2)
          (constant (F := Ideal) S256x4096 .f32 0x00000000#32))
        (broadcast S256x4096 (Scalar.ofBits (F := Ideal) .f32 0x3E000000#32)) (ix2 i j)
      = Cert.Attn.scoreRow (fun d => q (ix3 (0 : Fin 1) i d)) (fun j d => kt (ix3 (0 : Fin 1) d j)) j := by
  refine (mulf_apply _ _ (ix2 i j)).trans ?_
  unfold Cert.Attn.scoreRow
  have e : matmul dot_S256x64_S64x4096_S256x4096_1_0_0_1_n_n none (shapeCast S256x64 q h1)
        (shapeCast S64x4096 kt h2) (constant (F := Ideal) S256x4096 .f32 0x00000000#32) (ix2 i j)
      = ∑ d : Fin 64, q (ix3 (0 : Fin 1) i d) * kt (ix3 (0 : Fin 1) d j) := by
    refine (Cert.Lib.PlainDot.matmul_zero_apply
      Facts₀.dot_S256x64_S64x4096_S256x4096_1_0_0_1_n_n_wf none _ _ i j).trans ?_
    refine Finset.sum_congr rfl fun d _ => ?_
    rw [Cert.Lib.UnitAxis.drop_apply q h1 i d, Cert.Lib.UnitAxis.drop_apply kt h2 d j]
  rw [e]
  rfl

/-! ## Row statistics -/

/-- The maximum along the keys, at query row i: the fold of max from minus infinity over the row's 4096 entries. -/
theorem rowmax_apply (s : FVec Ideal S256x4096 .f32) (hr : S256x4096.Reduces [1] S256) (hφ : FKind.Formats .f32)
    (hacc : (0xFF800000#32 : BitVec 32) = FKind.maximumf.neutral .f32 hφ) (i : Fin 256) :
    multiReduction (F := Ideal) .maximumf [1] S256 s 0xFF800000#32 hr hφ hacc (ix1 i)
      = Cert.Attn.rowmax (fun j => s (ix2 i j)) := by
  refine (Ideal.multiReduction_maximumf_single s 0xFF800000#32 hr hφ hacc (ix1 i)).trans ?_
  have e : (s ∘ hr.lift (ix1 i) : Fin 4096 → EReal) = fun j : Fin 4096 => s (ix2 i j) :=
    funext fun j => congrArg s (funext fun c => Fin.ext (by
      match c with
      | ⟨0, _⟩ => rfl
      | ⟨1, _⟩ => rfl))
  exact congrArg (fun f : Fin 4096 → EReal =>
    (Finset.univ : Finset (Fin 4096)).fold max (Ideal.ofBits .f32 0xFF800000#32) f) e

/-- The sum along the keys, at query row i: the sum of the row's 4096 entries. -/
theorem rowsum_apply (e : FVec Ideal S256x4096 .f32) (hr : S256x4096.Reduces [1] S256) (hφ : FKind.Formats .f32)
    (hacc : (0x00000000#32 : BitVec 32) = FKind.add.neutral .f32 hφ) (i : Fin 256) :
    multiReduction (F := Ideal) .add [1] S256 e 0x00000000#32 hr hφ hacc (ix1 i) = ∑ j : Fin 4096, e (ix2 i j) := by
  refine (Ideal.multiReduction_add_single e 0x00000000#32 hr hφ hacc (ix1 i)).trans ?_
  show ∑ k : Fin 4096, e (hr.lift (ix1 i) k) = _
  refine Finset.sum_congr rfl fun k _ => congrArg e (funext fun c => Fin.ext ?_)
  match c with
  | ⟨0, _⟩ => rfl
  | ⟨1, _⟩ => rfl

/-- A vector of 256 row statistics kept as a column and broadcast back along the keys reads, at (i, j), the
    statistic of row i. -/
theorem keep_apply (x : FVec Ideal S256 .f32) (hc : S256.ShapeCasts S256x1) (hb : S256x1.Broadcasts S256x4096)
    (i : Fin 256) (j : Fin 4096) :
    broadcastTo S256x4096 (shapeCast S256x1 x hc) hb (ix2 i j) = x (ix1 i) :=
  (Cert.Lib.Keepdims.bcastCol_apply _ hb i j).trans (Cert.Lib.Keepdims.col_apply x hc i (0 : Fin 1))

/-! ## The weights -/

/-- The exponential of a row of scores shifted by its maximum, at (i, j). -/
theorem shifted_exp_apply (s : FVec Ideal S256x4096 .f32) (hr : S256x4096.Reduces [1] S256) (hφ : FKind.Formats .f32)
    (hmax : (0xFF800000#32 : BitVec 32) = FKind.maximumf.neutral .f32 hφ)
    (hc : S256.ShapeCasts S256x1) (hb : S256x1.Broadcasts S256x4096) (i : Fin 256) (j : Fin 4096) :
    exp (subf s (broadcastTo S256x4096
        (shapeCast S256x1 (multiReduction (F := Ideal) .maximumf [1] S256 s 0xFF800000#32 hr hφ hmax) hc) hb)) (ix2 i j)
      = Ideal.exp (s (ix2 i j) - Cert.Attn.rowmax (fun k => s (ix2 i k))) := by
  show Ideal.exp (s (ix2 i j) - broadcastTo S256x4096
        (shapeCast S256x1 (multiReduction (F := Ideal) .maximumf [1] S256 s 0xFF800000#32 hr hφ hmax) hc) hb (ix2 i j)) = _
  rw [keep_apply, rowmax_apply]

/-- An array divided by its row sums, at (i, j): the entry over the sum of its row. -/
theorem normalize_apply (e : FVec Ideal S256x4096 .f32) (hr : S256x4096.Reduces [1] S256) (hφ : FKind.Formats .f32)
    (hadd : (0x00000000#32 : BitVec 32) = FKind.add.neutral .f32 hφ)
    (hc : S256.ShapeCasts S256x1) (hb : S256x1.Broadcasts S256x4096) (i : Fin 256) (j : Fin 4096) :
    divf e (broadcastTo S256x4096
        (shapeCast S256x1 (multiReduction (F := Ideal) .add [1] S256 e 0x00000000#32 hr hφ hadd) hc) hb) (ix2 i j)
      = Ideal.div (e (ix2 i j)) (∑ k : Fin 4096, e (ix2 i k)) := by
  refine (divf_apply _ _ (ix2 i j)).trans ?_
  rw [keep_apply, rowsum_apply]

/-- The softmax weights of an array of scores whose row i is the function f, at (i, j): the weight of position j in f. -/
theorem weights_apply (s : FVec Ideal S256x4096 .f32) (hr : S256x4096.Reduces [1] S256) (hφ : FKind.Formats .f32)
    (hmax : (0xFF800000#32 : BitVec 32) = FKind.maximumf.neutral .f32 hφ)
    (hadd : (0x00000000#32 : BitVec 32) = FKind.add.neutral .f32 hφ)
    (hc : S256.ShapeCasts S256x1) (hb : S256x1.Broadcasts S256x4096) (i : Fin 256)
    (f : Fin 4096 → EReal) (hs : ∀ j, s (ix2 i j) = f j) (j : Fin 4096) :
    divf (exp (subf s (broadcastTo S256x4096
          (shapeCast S256x1 (multiReduction (F := Ideal) .maximumf [1] S256 s 0xFF800000#32 hr hφ hmax) hc) hb)))
        (broadcastTo S256x4096
          (shapeCast S256x1 (multiReduction (F := Ideal) .add [1] S256
            (exp (subf s (broadcastTo S256x4096
              (shapeCast S256x1 (multiReduction (F := Ideal) .maximumf [1] S256 s 0xFF800000#32 hr hφ hmax) hc) hb)))
            0x00000000#32 hr hφ hadd) hc) hb) (ix2 i j)
      = Cert.Attn.weight f j := by
  refine (normalize_apply _ hr hφ hadd hc hb i j).trans ?_
  have hf : (fun k => s (ix2 i k)) = f := funext hs
  have he : ∀ k : Fin 4096, exp (subf s (broadcastTo S256x4096
        (shapeCast S256x1 (multiReduction (F := Ideal) .maximumf [1] S256 s 0xFF800000#32 hr hφ hmax) hc) hb)) (ix2 i k)
      = Ideal.exp (f k - Cert.Attn.rowmax f) := fun k => by
    rw [shifted_exp_apply, hf, hs]
  unfold Cert.Attn.weight
  rw [he j, Finset.sum_congr rfl fun k _ => he k]

/-! ## The two further products and the bias -/

/-- The weights against the value rows, at (i, d): the sum over the keys j of p (i, j) · v (0, j, d). -/
theorem ctx_apply (p : FVec Ideal S256x4096 .f32) (v : FVec Ideal S1x4096x64 .bf16)
    (hb : FTy.bits .bf16 < FTy.bits .f32) (hc : S1x4096x64.ShapeCasts S4096x64) (i : Fin 256) (d : Fin 64) :
    matmul dot_S256x4096_S4096x64_S256x64_1_0_0_1_n_n none (truncf (F := Ideal) .bf16 p hb) (shapeCast S4096x64 v hc)
        (constant (F := Ideal) S256x64 .f32 0x00000000#32) (ix2 i d)
      = ∑ j : Fin 4096, p (ix2 i j) * v (ix3 (0 : Fin 1) j d) := by
  refine (Cert.Lib.PlainDot.matmul_zero_apply
    Facts₀.dot_S256x4096_S4096x64_S256x64_1_0_0_1_n_n_wf none _ _ i d).trans ?_
  refine Finset.sum_congr rfl fun j _ => ?_
  rw [round_bf16_apply p hb (ix2 i j), Cert.Lib.UnitAxis.drop_apply v hc j d]

/-- The context against the output weights, at (i, h): the sum over the features d of c (i, d) · Wo (d, h). -/
theorem proj_apply (c : FVec Ideal S256x64 .f32) (wo : FVec Ideal S64x768 .f32)
    (hb : FTy.bits .bf16 < FTy.bits .f32) (i : Fin 256) (h : Fin 768) :
    matmul dot_S256x64_S64x768_S256x768_1_0_0_1_n_n none (truncf (F := Ideal) .bf16 c hb)
        (truncf (F := Ideal) .bf16 wo hb) (constant (F := Ideal) S256x768 .f32 0x00000000#32) (ix2 i h)
      = ∑ d : Fin 64, c (ix2 i d) * wo (ix2 d h) := by
  refine (Cert.Lib.PlainDot.matmul_zero_apply
    Facts₀.dot_S256x64_S64x768_S256x768_1_0_0_1_n_n_wf none _ _ i h).trans ?_
  refine Finset.sum_congr rfl fun d _ => ?_
  rw [round_bf16_apply c hb (ix2 i d), round_bf16_apply wo hb (ix2 d h)]

/-- The output bias as a 1 × 768 row broadcast down the 256 rows reads, at (i, h), the bias at h. -/
theorem out_bias_apply (bo : FVec Ideal S768 .f32) (h1 : S768.ShapeCasts S1x768) (h2 : S1x768.Broadcasts S256x768)
    (i : Fin 256) (h : Fin 768) :
    broadcastTo S256x768 (shapeCast S1x768 bo h1) h2 (ix2 i h) = bo (ix1 h) := by
  refine (Cert.Lib.Rows.bcastRow_apply _ h2 i h).trans ?_
  exact shapeCast_apply bo h1 _ _ (by
    rw [Shape.rowMajor_val_one, Shape.rowMajor_val_two]
    show h.val = 0 * 768 + h.val
    omega)

/-! ## The stored block -/

/-- The stored output block at (·, i, h): the specification's output row of query row i, against all the keys and
    values of the block's batch entry, at h. -/
theorem pay_out (q : Vec Ideal S1x256x64 .bf16) (kt : Vec Ideal S1x64x4096 .bf16) (v : Vec Ideal S1x4096x64 .bf16)
    (wo : Vec Ideal S64x768 .f32) (bo : Vec Ideal S768 .f32) (u : Fin 1) (i : Fin 256) (h : Fin 768) :
    k1_pay1 (F := Ideal) q kt v wo bo (ix3 u i h)
      = Cert.Attn.outRow (fun d => q (ix3 (0 : Fin 1) i d)) (fun j d => kt (ix3 (0 : Fin 1) d j))
          (fun j d => v (ix3 (0 : Fin 1) j d)) wo bo h := by
  unfold k1_pay1
  refine (Cert.Lib.UnitAxis.add_apply _ _ u i h).trans ?_
  refine (addf_apply _ _ (ix2 i h)).trans ?_
  unfold Cert.Attn.outRow
  refine congrArg₂ (fun a b : EReal => a + b) ?_ (out_bias_apply bo _ _ i h)
  refine (proj_apply _ wo _ i h).trans ?_
  refine Finset.sum_congr rfl fun d _ => congrArg (fun a : EReal => a * wo (ix2 d h)) ?_
  refine (ctx_apply _ v _ _ i d).trans ?_
  unfold Cert.Attn.ctxRow
  refine Finset.sum_congr rfl fun j _ => congrArg (fun a : EReal => a * v (ix3 (0 : Fin 1) j d)) ?_
  exact weights_apply _ _ _ _ _ _ _ i _ (fun j => scores_apply q kt _ _ i j) j

end Cert.KernelIdeal.Pay

end
-- ==== Proof.Blocks1.lean ====
/-
  The array the second launch leaves: the attention output, as one function of the launch's five input arrays.

  The grid has a point per (batch entry, block of 256 query rows). A point reads its block of query rows, the whole
  transposed key matrix and the whole value matrix of its batch entry, the whole output weights and bias, and writes
  its block of output rows: row `i` of the block is the attention output of query row `i` against all 4096 keys and
  values of the batch entry. Every index of the output array lies in the block of the point holding its batch entry
  and its row block, so after the launch the array is that function everywhere.
-/
import proofs.«151435_j77017353552430_2_alg».proof.Proof.IdealFrame
import proofs.«151435_j77017353552430_2_alg».proof.Proof.Spec
import proofs.«151435_j77017353552430_2_alg».proof.Proof.Pay1
import Idealize.ShloMosaic.Lib.Pipeline.Value
import Idealize.ShloMosaic.Lib.ValueIdx

set_option maxRecDepth 16384

noncomputable section

namespace Cert.KernelIdeal.Val1

open Cert.KernelIdeal Cert.KernelIdeal.Gen Cert.KernelIdeal.Fr
open Idealize.ShloMosaic Idealize.ShloMosaic.TcCoe Idealize.ShloMosaic.ValueIdx Idealize.SL.Sem
open Idealize.ShloMosaic.Pipeline (Dat)
open scoped BigOperators

/-- A buffer's contents as a function into the extended reals. -/
abbrev arr (S : Shape) (x : S.Idx → EReal) : S.Idx → EReal := x

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A whole-block store of a value computed from whole-block loads leaves that value of the blocks. -/
theorem out1_5_eq (x0 : Vec Ideal S1x256x64 .bf16) (x1 : Vec Ideal S1x64x4096 .bf16) (x2 : Vec Ideal S1x4096x64 .bf16)
    (x3 : Vec Ideal S64x768 .f32) (x4 : Vec Ideal S768 .f32) :
    out1_5 (F := Ideal) x0 x1 x2 x3 x4 = k1_pay1 x0 x1 x2 x3 x4 := by
  unfold out1_5
  rw [View.canon_unit_zero hz3]
  simp only [View.ld_unit_zero (S := S1x256x64) hz3, View.ld_unit_zero (S := S1x64x4096) hz3, View.ld_unit_zero (S := S1x4096x64) hz3,
    View.ld_unit_zero (S := S64x768) hz2, View.ld_unit_zero (S := S768) hz1]

/-- Attention of every query row of every batch entry over the five arrays: queries [4,4096,64], transposed keys
    [4,64,4096], values [4,4096,64], output weights [64,768], output bias [768]. -/
def attnOf (Q : S4x4096x64.Idx → EReal) (KT : S4x64x4096.Idx → EReal) (VV : S4x4096x64.Idx → EReal)
    (Wo : S64x768.Idx → EReal) (bo : S768.Idx → EReal) : S4x4096x768.Idx → EReal := fun i =>
  Cert.Attn.outRow (fun d => Q (ix3 (i 0) (i 1) d)) (fun j d => KT (ix3 (i 0) d j)) (fun j d => VV (ix3 (i 0) j d)) Wo bo (i 2)

variable (V : (c : Dev nD) → (b : Ref sig .tc) → Buf (Elt Ideal) ((c : Thread nD τ).loc b)) (c : Dev nD)

/-- The output array the launch leaves. -/
def Gout : S4x4096x768.Idx → EReal :=
  attnOf (V c main_v2_0) (V c main_v2_1) (V c main_v2_2) (V c main_arg7) (V c main_arg8)

/-- The printed index maps over the 64 points: the query block moves with the output block; the keys' and the values'
    blocks are the batch entry's whole matrices; the output weights and bias have one block. -/
theorem idx_facts : ∀ t : Fin cfg1.N,
    win1_0.index t (0 : Fin 3) = win1_5.index t (0 : Fin 3) ∧ win1_0.index t (1 : Fin 3) = win1_5.index t (1 : Fin 3)
    ∧ win1_0.index t (2 : Fin 3) = 0
    ∧ win1_1.index t (0 : Fin 3) = win1_5.index t (0 : Fin 3) ∧ win1_1.index t (1 : Fin 3) = 0 ∧ win1_1.index t (2 : Fin 3) = 0
    ∧ win1_2.index t (0 : Fin 3) = win1_5.index t (0 : Fin 3) ∧ win1_2.index t (1 : Fin 3) = 0 ∧ win1_2.index t (2 : Fin 3) = 0
    ∧ win1_3.index t (0 : Fin 2) = 0 ∧ win1_3.index t (1 : Fin 2) = 0 ∧ win1_4.index t (0 : Fin 1) = 0
    ∧ win1_5.index t (2 : Fin 3) = 0 ∧ win1_5.index t (0 : Fin 3) ≤ 3 ∧ win1_5.index t (1 : Fin 3) ≤ 15 :=
  (by decide +kernel : ∀ t : Fin grid1.N, _)

/-- Every (batch entry, row block) is some point's. -/
theorem idx_onto : ∀ (q0 : Fin 4) (q1 : Fin 16), ∃ t : Fin cfg1.N,
    win1_5.index t (0 : Fin 3) = q0.val ∧ win1_5.index t (1 : Fin 3) = q1.val :=
  (by decide +kernel : ∀ (q0 : Fin 4) (q1 : Fin 16), ∃ t : Fin grid1.N, win1_5.index t (0 : Fin 3) = q0.val ∧ win1_5.index t (1 : Fin 3) = q1.val)

/-- What point `t` writes back to the output array is block `t` of `Gout`. -/
theorem flushed5_eq (t : Fin cfg1.N) :
    (dat1 V c).flushed 5 t = ((cfg1.win 5).blk t).view.read (Elt Ideal) (Gout V c) := by
  show (cfg1.win 5).cut (grid1.coords t) ((dat1 V c).after 5 t) = _
  rw [after1_5, out1_5_eq]
  obtain ⟨e0, e1, e2, e3, e4, e5, e6, e7, e8, e9, e10, e11, e12, e13, e14⟩ := idx_facts t
  funext j
  obtain ⟨u, i, h, rfl⟩ : ∃ (u : Fin 1) (i : Fin 256) (h : Fin 768), j = ix3 u i h := ⟨j 0, j 1, j 2, eq_ix3 j⟩
  have hu : u.val = 0 := by omega
  refine (Cert.KernelIdeal.Pay.pay_out (iblk1 V c 0 t) (iblk1 V c 1 t) (iblk1 V c 2 t) (iblk1 V c 3 t) (iblk1 V c 4 t) u i h).trans ?_
  show _ = Gout V c (((cfg1.win 5).blk t).view.emb (ix3 u i h))
  unfold Gout attnOf
  have hq : (fun d : Fin 64 => iblk1 V c 0 t (ix3 (0 : Fin 1) i d))
      = fun d => arr S4x4096x64 (V c main_v2_0) (ix3 ((((cfg1.win 5).blk t).view.emb (ix3 u i h)) 0) ((((cfg1.win 5).blk t).view.emb (ix3 u i h)) 1) d) :=
    funext fun d => by
      show arr S4x4096x64 (V c main_v2_0) (((cfg1.win 0).blk t).view.emb (ix3 (0 : Fin 1) i d)) = _
      refine congrArg _ (funext fun a => Fin.ext ?_)
      match a with
      | ⟨0, _⟩ => show win1_0.index t (0 : Fin 3) * 1 + 1 * 0 = win1_5.index t (0 : Fin 3) * 1 + 1 * u.val; omega
      | ⟨1, _⟩ => show win1_0.index t (1 : Fin 3) * 256 + 1 * i.val = win1_5.index t (1 : Fin 3) * 256 + 1 * i.val; omega
      | ⟨2, _⟩ => show win1_0.index t (2 : Fin 3) * 64 + 1 * d.val = d.val; omega
  have hk : (fun (j : Fin 4096) (d : Fin 64) => iblk1 V c 1 t (ix3 (0 : Fin 1) d j))
      = fun j d => arr S4x64x4096 (V c main_v2_1) (ix3 ((((cfg1.win 5).blk t).view.emb (ix3 u i h)) 0) d j) :=
    funext fun j => funext fun d => by
      show arr S4x64x4096 (V c main_v2_1) (((cfg1.win 1).blk t).view.emb (ix3 (0 : Fin 1) d j)) = _
      refine congrArg _ (funext fun a => Fin.ext ?_)
      match a with
      | ⟨0, _⟩ => show win1_1.index t (0 : Fin 3) * 1 + 1 * 0 = win1_5.index t (0 : Fin 3) * 1 + 1 * u.val; omega
      | ⟨1, _⟩ => show win1_1.index t (1 : Fin 3) * 64 + 1 * d.val = d.val; omega
      | ⟨2, _⟩ => show win1_1.index t (2 : Fin 3) * 4096 + 1 * j.val = j.val; omega
  have hv : (fun (j : Fin 4096) (d : Fin 64) => iblk1 V c 2 t (ix3 (0 : Fin 1) j d))
      = fun j d => arr S4x4096x64 (V c main_v2_2) (ix3 ((((cfg1.win 5).blk t).view.emb (ix3 u i h)) 0) j d) :=
    funext fun j => funext fun d => by
      show arr S4x4096x64 (V c main_v2_2) (((cfg1.win 2).blk t).view.emb (ix3 (0 : Fin 1) j d)) = _
      refine congrArg _ (funext fun a => Fin.ext ?_)
      match a with
      | ⟨0, _⟩ => show win1_2.index t (0 : Fin 3) * 1 + 1 * 0 = win1_5.index t (0 : Fin 3) * 1 + 1 * u.val; omega
      | ⟨1, _⟩ => show win1_2.index t (1 : Fin 3) * 4096 + 1 * j.val = j.val; omega
      | ⟨2, _⟩ => show win1_2.index t (2 : Fin 3) * 64 + 1 * d.val = d.val; omega
  have hw : iblk1 V c 3 t = arr S64x768 (V c main_arg7) :=
    funext fun y => by
      show arr S64x768 (V c main_arg7) (((cfg1.win 3).blk t).view.emb y) = _
      refine congrArg _ (funext fun a => Fin.ext ?_)
      match a with
      | ⟨0, _⟩ => show win1_3.index t (0 : Fin 2) * 64 + 1 * (y 0).val = (y 0).val; omega
      | ⟨1, _⟩ => show win1_3.index t (1 : Fin 2) * 768 + 1 * (y 1).val = (y 1).val; omega
  have hb : iblk1 V c 4 t = arr S768 (V c main_arg8) :=
    funext fun y => by
      show arr S768 (V c main_arg8) (((cfg1.win 4).blk t).view.emb y) = _
      refine congrArg _ (funext fun a => Fin.ext ?_)
      match a with
      | ⟨0, _⟩ => show win1_4.index t (0 : Fin 1) * 768 + 1 * (y 0).val = (y 0).val; omega
  have hh : h = (((cfg1.win 5).blk t).view.emb (ix3 u i h)) 2 := Fin.ext (by
    show h.val = win1_5.index t (2 : Fin 3) * 768 + 1 * h.val; omega)
  rw [hq, hk, hv, hw, hb]
  exact congrArg _ hh

/-- An index of the output array is in point `t`'s block iff each coordinate is in the block's range on its axis. -/
theorem mem_blk5 (t : Fin cfg1.N) (i : S4x4096x768.Idx) :
    i ∈ ((cfg1.win 5).blk t).view.set ↔ ∀ a : Fin 3, win1_5.index t a * S1x256x768.size a ≤ (i a).val
      ∧ (i a).val < win1_5.index t a * S1x256x768.size a + S1x256x768.size a := by
  show i ∈ ((View.whole main_v3).slice (win1_5.rect t)).set ↔ _
  rw [View.set_slice_whole, Rect.mem_set_unit]
  exact Iff.rfl

/-- Every index of the output array is in some point's block: the point of its batch entry and its block of rows. -/
theorem cover5 (i : S4x4096x768.Idx) : ∃ t : Fin cfg1.N, (cfg1.win 5).flush t = true ∧ i ∈ ((cfg1.win 5).blk t).view.set := by
  have h0 : (i 0).val < 4 := (i 0).isLt
  have h1 : (i 1).val < 4096 := (i 1).isLt
  have h2 : (i 2).val < 768 := (i 2).isLt
  obtain ⟨t, q0, q1⟩ := idx_onto ⟨(i 0).val, h0⟩ ⟨(i 1).val / 256, by omega⟩
  obtain ⟨-, -, -, -, -, -, -, -, -, -, -, -, e12, -, -⟩ := idx_facts t
  refine ⟨t, flush1_5 t, ?_⟩
  rw [mem_blk5]
  intro a
  match a with
  | ⟨0, _⟩ => show win1_5.index t (0 : Fin 3) * 1 ≤ (i 0).val ∧ (i 0).val < win1_5.index t (0 : Fin 3) * 1 + 1; simp only at q0; omega
  | ⟨1, _⟩ => show win1_5.index t (1 : Fin 3) * 256 ≤ (i 1).val ∧ (i 1).val < win1_5.index t (1 : Fin 3) * 256 + 256; simp only at q1; omega
  | ⟨2, _⟩ => show win1_5.index t (2 : Fin 3) * 768 ≤ (i 2).val ∧ (i 2).val < win1_5.index t (2 : Fin 3) * 768 + 768; omega

/-- The output array after the launch. -/
theorem final5 : (dat1 V c).arrAt 5 cfg1.N = Gout V c :=
  (dat1 V c).arrAt_eq_of_cover 5 (Gout V c) (fun t _ => flushed5_eq V c t) (cover5)

end Cert.KernelIdeal.Val1

end
-- ==== Proof.KernelIsAttn.lean ====
/-
  The kernel program computes the attention specification.

  The second launch leaves, in the result array, attention over the arrays the first launch leaves and the output
  weights and bias. The first launch leaves the three projections of the input rows against the joined weights and
  bias; column `d`, `d + 64`, `d + 128` of the join is column `d` of the query, key, value weights (and the same for the
  bias), so the three arrays are the specification's three projections, the keys transposed. The output weights and
  bias reach the second launch as launched. Substituting gives the specification, index by index; no property of the
  numbers is used beyond these re-indexings.
-/
import proofs.«151435_j77017353552430_2_alg».proof.Proof.IdealFrame
import proofs.«151435_j77017353552430_2_alg».proof.Proof.HostJoin
import proofs.«151435_j77017353552430_2_alg».proof.Proof.Blocks0
import proofs.«151435_j77017353552430_2_alg».proof.Proof.Blocks1
import proofs.«151435_j77017353552430_2_alg».proof.Proof.Spec

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.ValueIdx Idealize.SL.Sem
open scoped BigOperators

/-- Against the joined weights and bias, the columns from 0 on are the query projection, -/
theorem projAt_q (X : S4x4096x768.Idx → EReal) (Wq Wk Wv : S768x64.Idx → EReal) (bq bk bv : S64.Idx → EReal)
    (r : Fin 4) (s : Fin 4096) (d : Fin 64) :
    Val0.projAt 0 (by omega) X (joinW Wq Wk Wv) (joinB bq bk bv) r s d = Cert.Attn.proj X Wq bq r s d := by
  unfold Val0.projAt Cert.Attn.proj
  exact congrArg₂ (· + ·) (Finset.sum_congr rfl fun h _ => congrArg _ (joinW_q Wq Wk Wv h d)) (joinB_q bq bk bv d)
/-- the columns from 64 on the key projection, -/
theorem projAt_k (X : S4x4096x768.Idx → EReal) (Wq Wk Wv : S768x64.Idx → EReal) (bq bk bv : S64.Idx → EReal)
    (r : Fin 4) (s : Fin 4096) (d : Fin 64) :
    Val0.projAt 64 (by omega) X (joinW Wq Wk Wv) (joinB bq bk bv) r s d = Cert.Attn.proj X Wk bk r s d := by
  unfold Val0.projAt Cert.Attn.proj
  exact congrArg₂ (· + ·) (Finset.sum_congr rfl fun h _ => congrArg _ (joinW_k Wq Wk Wv h d)) (joinB_k bq bk bv d)
/-- the columns from 128 on the value projection. -/
theorem projAt_v (X : S4x4096x768.Idx → EReal) (Wq Wk Wv : S768x64.Idx → EReal) (bq bk bv : S64.Idx → EReal)
    (r : Fin 4) (s : Fin 4096) (d : Fin 64) :
    Val0.projAt 128 (by omega) X (joinW Wq Wk Wv) (joinB bq bk bv) r s d = Cert.Attn.proj X Wv bv r s d := by
  unfold Val0.projAt Cert.Attn.proj
  exact congrArg₂ (· + ·) (Finset.sum_congr rfl fun h _ => congrArg _ (joinW_v Wq Wk Wv h d)) (joinB_v bq bk bv d)

/-- Attention over arrays that are the three projections (the keys transposed) is the specification. -/
theorem attnOf_eq (Q : S4x4096x64.Idx → EReal) (KT : S4x64x4096.Idx → EReal) (VV : S4x4096x64.Idx → EReal)
    (Wo : S64x768.Idx → EReal) (bo : S768.Idx → EReal)
    (x : S4x4096x768.Idx → EReal) (Wq : S768x64.Idx → EReal) (bq : S64.Idx → EReal) (Wk : S768x64.Idx → EReal) (bk : S64.Idx → EReal)
    (Wv : S768x64.Idx → EReal) (bv : S64.Idx → EReal)
    (hQ : ∀ r s d, Q (ix3 r s d) = Cert.Attn.proj x Wq bq r s d)
    (hK : ∀ r d j, KT (ix3 r d j) = Cert.Attn.proj x Wk bk r j d)
    (hV : ∀ r j d, VV (ix3 r j d) = Cert.Attn.proj x Wv bv r j d) :
    Val1.attnOf Q KT VV Wo bo = Cert.Attn.attn x Wq bq Wk bk Wv bv Wo bo := by
  funext i
  obtain ⟨r, s, h, rfl⟩ : ∃ (r : Fin 4) (s : Fin 4096) (h : Fin 768), i = ix3 r s h := ⟨i 0, i 1, i 2, eq_ix3 i⟩
  show Cert.Attn.outRow (fun d => Q (ix3 r s d)) (fun j d => KT (ix3 r d j)) (fun j d => VV (ix3 r j d)) Wo bo h
    = Cert.Attn.outRow (Cert.Attn.proj x Wq bq r s) (Cert.Attn.proj x Wk bk r) (Cert.Attn.proj x Wv bv r) Wo bo h
  simp only [hQ, hK, hV]

variable (m : (ℓ : Loc nD τ sig) → Buf (Elt Ideal) ℓ) (ρ : Dev nD → PrngReg)

/-- What the second launch finds in the query, key and value arrays is what the first launch leaves there. -/
theorem V2_q (c : Dev nD) : (V2 m ρ c main_v2_0 : S4x4096x64.Idx → EReal) = Val0.Gq (V1 m ρ) c :=
  (W2_arr m ρ c 3).trans (Val0.final3 (V1 m ρ) c)
theorem V2_kt (c : Dev nD) : (V2 m ρ c main_v2_1 : S4x64x4096.Idx → EReal) = Val0.Gkt (V1 m ρ) c :=
  (W2_arr m ρ c 4).trans (Val0.final4 (V1 m ρ) c)
theorem V2_v (c : Dev nD) : (V2 m ρ c main_v2_2 : S4x4096x64.Idx → EReal) = Val0.Gv (V1 m ρ) c :=
  (W2_arr m ρ c 5).trans (Val0.final5 (V1 m ρ) c)
/-- The output weights and bias reach it as launched. -/
theorem V2_wo (c : Dev nD) : (V2 m ρ c main_arg7 : S64x768.Idx → EReal) = m ((c : Thread nD τ).loc main_arg7) :=
  (W2_of_ne m ρ c main_arg7 (by decide)).trans (W1_of m ρ c main_arg7 (by decide))
theorem V2_bo (c : Dev nD) : (V2 m ρ c main_arg8 : S768.Idx → EReal) = m ((c : Thread nD τ).loc main_arg8) :=
  (W2_of_ne m ρ c main_arg8 (by decide)).trans (W1_of m ρ c main_arg8 (by decide))

/-- The three arrays the first launch leaves are the three projections of the argument arrays. -/
theorem Gq_apply (c : Dev nD) (r : Fin 4) (s : Fin 4096) (d : Fin 64) :
    Val0.Gq (V1 m ρ) c (ix3 r s d) = Cert.Attn.proj (m ((c : Thread nD τ).loc main_arg0)) (m ((c : Thread nD τ).loc main_arg1))
      (m ((c : Thread nD τ).loc main_arg2)) r s d := by
  have e0 := V1_arg0 m ρ c
  have e1 := V1_v0 m ρ c
  have e2 := V1_v1 m ρ c
  show Val0.projAt 0 (by omega) (V1 m ρ c main_arg0) (V1 m ρ c main_v0) (V1 m ρ c main_v1) r s d = _
  rw [e0, e1, e2]
  exact projAt_q _ _ _ _ _ _ _ r s d
theorem Gkt_apply (c : Dev nD) (r : Fin 4) (d : Fin 64) (j : Fin 4096) :
    Val0.Gkt (V1 m ρ) c (ix3 r d j) = Cert.Attn.proj (m ((c : Thread nD τ).loc main_arg0)) (m ((c : Thread nD τ).loc main_arg3))
      (m ((c : Thread nD τ).loc main_arg4)) r j d := by
  have e0 := V1_arg0 m ρ c
  have e1 := V1_v0 m ρ c
  have e2 := V1_v1 m ρ c
  show Val0.projAt 64 (by omega) (V1 m ρ c main_arg0) (V1 m ρ c main_v0) (V1 m ρ c main_v1) r j d = _
  rw [e0, e1, e2]
  exact projAt_k _ _ _ _ _ _ _ r j d
theorem Gv_apply (c : Dev nD) (r : Fin 4) (j : Fin 4096) (d : Fin 64) :
    Val0.Gv (V1 m ρ) c (ix3 r j d) = Cert.Attn.proj (m ((c : Thread nD τ).loc main_arg0)) (m ((c : Thread nD τ).loc main_arg5))
      (m ((c : Thread nD τ).loc main_arg6)) r j d := by
  have e0 := V1_arg0 m ρ c
  have e1 := V1_v0 m ρ c
  have e2 := V1_v1 m ρ c
  show Val0.projAt 128 (by omega) (V1 m ρ c main_arg0) (V1 m ρ c main_v0) (V1 m ρ c main_v1) r j d = _
  rw [e0, e1, e2]
  exact projAt_v _ _ _ _ _ _ _ r j d

/-- THE KERNEL'S VALUE: the result array after the run is the specification of the nine argument arrays. -/
theorem result_attn (c : Dev nD) :
    (dat1 (V2 m ρ) c).arrAt 5 cfg1.N
      = Cert.Attn.attn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (Val1.final5 (V2 m ρ) c).trans ?_
  have hq := V2_q m ρ c
  have hk := V2_kt m ρ c
  have hv := V2_v m ρ c
  have hwo := V2_wo m ρ c
  have hbo := V2_bo m ρ c
  show Val1.attnOf (V2 m ρ c main_v2_0) (V2 m ρ c main_v2_1) (V2 m ρ c main_v2_2) (V2 m ρ c main_arg7) (V2 m ρ c main_arg8) = _
  rw [hq, hk, hv, hwo, hbo]
  exact attnOf_eq _ _ _ _ _ _ _ _ _ _ _ _ (Gq_apply m ρ c) (Gkt_apply m ρ c) (Gv_apply m ρ c)

end Cert.KernelIdeal.Val

end
-- ==== Proof.RefIsAttn.lean ====
import proofs.«151435_j77017353552430_2_alg».proof.Proof.Gen.ReferenceIdeal.Read
import proofs.«151435_j77017353552430_2_alg».proof.Proof.Spec
/-
  The reference program computes the attention specification.

  Each stage of the reference is read at an index and identified with the matching piece of the specification: the three
  projections (a sum over the 768 hidden coordinates plus a bias), the scaled scores (a sum over the 64 head
  coordinates times one eighth), the row maximum (a fold of max over the 4096 key positions from minus infinity), the
  softmax weights (exponential of score minus maximum over the sum of those exponentials over the key positions), the
  context (a sum over the key positions of weight times value) and the output (a sum over the 64 head coordinates plus a
  bias).
-/

set_option maxRecDepth 16384

noncomputable section

namespace Cert.RefAttn

open Cert.ReferenceIdeal Cert.ReferenceIdeal.Gen Cert.ReferenceIdeal.Read Idealize.ShloMosaic Idealize.ShloMosaic.ValueIdx
open scoped BigOperators

/-! ## The projections -/

/-- The query projection: at (r, s, d) the sum over the hidden coordinate h of x(r, s, h) · Wq(h, d), plus bq(d). -/
theorem q_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (r : Fin 4) (s : Fin 4096) (d : Fin 64) :
    val_main_v3 (F := Ideal) x0 x1 x2 (ix3 r s d) = Cert.Attn.proj x0 x1 x2 r s d := by
  rw [val_main_v3_apply, val_main_v0_apply, val_main_v2_apply, val_main_v1_apply]
  have el : ∀ k : Fin 768, lidx_main_v0 (ix3 r s d) k = ix3 r s k := fun k => funext fun a => Fin.ext (by
    match a with | ⟨0, _⟩ => rfl | ⟨1, _⟩ => rfl | ⟨2, _⟩ => rfl)
  have er : ∀ k : Fin 768, ridx_main_v0 (ix3 r s d) k = ix2 k d := fun k => funext fun a => Fin.ext (by
    match a with | ⟨0, _⟩ => rfl | ⟨1, _⟩ => rfl)
  have eb : idx_main_v1 (idx_main_v2 (ix3 r s d)) = ix1 d := funext fun a => Fin.ext (by
    match a with | ⟨0, _⟩ => rfl)
  simp only [el, er, eb, Ideal.addf_def]
  rfl

/-- The key projection: at (r, s, d) the sum over h of x(r, s, h) · Wk(h, d), plus bk(d). -/
theorem k_eq (x0 : (⟨S4x4096x768, .f32⟩ : BufTy).Contents (Elt Ideal)) (x3 : (⟨S768x64, .f32⟩ : BufTy).Contents (Elt Ideal))
    (x4 : (⟨S64, .f32⟩ : BufTy).Contents (Elt Ideal)) (r : Fin 4) (s : Fin 4096) (d : Fin 64) :
    val_main_v7 (F := Ideal) x0 x3 x4 (ix3 r s d) = Cert.Attn.proj x0 x3 x4 r s d := by
  rw [val_main_v7_apply, val_main_v4_apply, val_main_v6_apply, val_main_v5_apply]
  have el : ∀ k : Fin 768, lidx_main_v4 (ix3 r s d) k = ix3 r s k := fun k => funext fun a => Fin.ext (by
    match a with | ⟨0, _⟩ => rfl | ⟨1, _⟩ => rfl | ⟨2, _⟩ => rfl)
  have er : ∀ k : Fin 768, ridx_main_v4 (ix3 r s d) k = ix2 k d := fun k => funext fun a => Fin.ext (by
    match a with | ⟨0, _⟩ => rfl | ⟨1, _⟩ => rfl)
  have eb : idx_main_v5 (idx_main_v6 (ix3 r s d)) = ix1 d := funext fun a => Fin.ext (by
    match a with | ⟨0, _⟩ => rfl)
  simp only [el, er, eb, Ideal.addf_def]
  rfl

/-- The value projection: at (r, s, d) the sum over h of x(r, s, h) · Wv(h, d), plus bv(d). -/
theorem v_eq (x0 : (⟨S4x4096x768, .f32⟩ : BufTy).Contents (Elt Ideal)) (x5 : (⟨S768x64, .f32⟩ : BufTy).Contents (Elt Ideal))
    (x6 : (⟨S64, .f32⟩ : BufTy).Contents (Elt Ideal)) (r : Fin 4) (s : Fin 4096) (d : Fin 64) :
    val_main_v11 (F := Ideal) x0 x5 x6 (ix3 r s d) = Cert.Attn.proj x0 x5 x6 r s d := by
  rw [val_main_v11_apply, val_main_v8_apply, val_main_v10_apply, val_main_v9_apply]
  have el : ∀ k : Fin 768, lidx_main_v8 (ix3 r s d) k = ix3 r s k := fun k => funext fun a => Fin.ext (by
    match a with | ⟨0, _⟩ => rfl | ⟨1, _⟩ => rfl | ⟨2, _⟩ => rfl)
  have er : ∀ k : Fin 768, ridx_main_v8 (ix3 r s d) k = ix2 k d := fun k => funext fun a => Fin.ext (by
    match a with | ⟨0, _⟩ => rfl | ⟨1, _⟩ => rfl)
  have eb : idx_main_v9 (idx_main_v10 (ix3 r s d)) = ix1 d := funext fun a => Fin.ext (by
    match a with | ⟨0, _⟩ => rfl)
  simp only [el, er, eb, Ideal.addf_def]
  rfl

/-! ## The scale and the scores -/

/-- The broadcast scale is one over the square root of sixty-four at every index: one eighth. -/
theorem scale_at (i : S4x4096x4096.Idx) :
    val_main_v15 (F := Ideal) i = Ideal.ofBits .f32 0x3E000000#32 := by
  rw [val_main_v15_apply, val_main_v13_apply, val_main_v12_apply, val_main_cst_apply, val_main_cst_0_apply]
  simp only [Ideal.hostDivf_def, Ideal.hostUnary_sqrt_def, Ideal.ofBits_def]
  exact Cert.Attn.scale_eq

/-- The scaled score at (r, i, j): the sum over the head coordinate d of q(r, i, d) · k(r, j, d), times one eighth. -/
theorem score_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (r : Fin 4) (i j : Fin 4096) :
    val_main_v16 (F := Ideal) x0 x1 x2 x3 x4 (ix3 r i j)
      = Cert.Attn.scoreRow (Cert.Attn.proj x0 x1 x2 r i) (Cert.Attn.proj x0 x3 x4 r) j := by
  rw [val_main_v16_apply, val_main_v14_apply, scale_at]
  have el : ∀ k : Fin 64, lidx_main_v14 (ix3 r i j) k = ix3 r i k := fun k => funext fun a => Fin.ext (by
    match a with | ⟨0, _⟩ => rfl | ⟨1, _⟩ => rfl | ⟨2, _⟩ => rfl)
  have er : ∀ k : Fin 64, ridx_main_v14 (ix3 r i j) k = ix3 r j k := fun k => funext fun a => Fin.ext (by
    match a with | ⟨0, _⟩ => rfl | ⟨1, _⟩ => rfl | ⟨2, _⟩ => rfl)
  simp only [el, er, q_eq, k_eq, Ideal.mulf_def]
  rfl

/-! ## The row maximum -/

/-- The max-reduce over the key axis at (r, i): the fold of max, from minus infinity, over the key positions j of the
    score at (r, i, j). -/
theorem redmax_apply (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (r : Fin 4) (i : Fin 4096) :
    val_main_v17 (F := Ideal) x0 x1 x2 x3 x4 (ix2 r i)
      = (Finset.univ : Finset (Fin 4096)).fold max (Ideal.ofBits .f32 0xFF800000#32)
          (fun j : Fin 4096 => val_main_v16 (F := Ideal) x0 x1 x2 x3 x4 (ix3 r i j)) := by
  unfold val_main_v17
  generalize val_main_v16 (F := Ideal) x0 x1 x2 x3 x4 = y0
  have h : S4x4096x4096.Reduces [2] S4x4096 := by decide
  refine (Host.reduce_eq_fold_single (FloatOps.maximumf (F := Ideal) (φ := .f32)) y0 _
    reducesTo_S4x4096x4096_S4x4096_d2 h h_S_ (ix2 r i)).trans ?_
  have hf : (y0 ∘ h.lift (ix2 r i)) = fun j : Fin 4096 => y0 (ix3 r i j) := funext fun k => congrArg y0
    (funext fun a => Fin.ext (by match a with | ⟨0, _⟩ => rfl | ⟨1, _⟩ => rfl | ⟨2, _⟩ => rfl))
  exact congrArg (fun f => Finset.fold max (Ideal.ofBits .f32 0xFF800000#32) f (Finset.univ : Finset (Fin 4096))) hf

/-- The maximum with the minus-infinity broadcast changes nothing, so the stage at (r, i) is the row maximum of the
    scores of query row i. -/
theorem max_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (r : Fin 4) (i : Fin 4096) :
    val_main_v19 (F := Ideal) x0 x1 x2 x3 x4 (ix2 r i) = Cert.Attn.rowmax (Cert.Attn.scoreRow (Cert.Attn.proj x0 x1 x2 r i) (Cert.Attn.proj x0 x3 x4 r)) := by
  rw [val_main_v19_apply, val_main_v18_apply, val_main_cst_2_apply, redmax_apply]
  have hb : ∀ y : EReal, max (Ideal.ofBits .f32 0xFF800000#32) y = y := fun y => by
    rw [Cert.Attn.ofBits_ninf]; exact max_bot_left y
  simp only [Ideal.maximumf_def, Ideal.ofBits_def, score_eq]
  rw [hb]
  rfl

/-! ## The softmax weights -/

/-- The exponential stage at (r, i, j): the exponential of the score at j minus the row maximum. -/
theorem exp_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (r : Fin 4) (i j : Fin 4096) :
    val_main_v23 (F := Ideal) x0 x1 x2 x3 x4 (ix3 r i j)
      = Ideal.exp ((Cert.Attn.scoreRow (Cert.Attn.proj x0 x1 x2 r i) (Cert.Attn.proj x0 x3 x4 r)) j - Cert.Attn.rowmax (Cert.Attn.scoreRow (Cert.Attn.proj x0 x1 x2 r i) (Cert.Attn.proj x0 x3 x4 r))) := by
  rw [val_main_v23_apply, val_main_v22_apply, val_main_v21_apply, val_main_v20_apply]
  have e : idx_main_v20 (idx_main_v21 (ix3 r i j)) = ix2 r i := funext fun a => Fin.ext (by
    match a with | ⟨0, _⟩ => rfl | ⟨1, _⟩ => rfl)
  rw [e, max_eq, score_eq]
  simp only [Ideal.hostUnary_exp_def, Ideal.subf_def]

/-- The add-reduce over the key axis at (r, i): from zero, the sum over the key positions k of the exponentials. -/
theorem denom_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (r : Fin 4) (i : Fin 4096) :
    val_main_v24 (F := Ideal) x0 x1 x2 x3 x4 (ix2 r i)
      = ∑ k : Fin 4096, Ideal.exp ((Cert.Attn.scoreRow (Cert.Attn.proj x0 x1 x2 r i) (Cert.Attn.proj x0 x3 x4 r)) k - Cert.Attn.rowmax (Cert.Attn.scoreRow (Cert.Attn.proj x0 x1 x2 r i) (Cert.Attn.proj x0 x3 x4 r))) := by
  rw [val_main_v24_apply, val_main_cst_3_apply]
  have e : ∀ k : Fin 4096, idx_main_v24 (ix2 r i) k = ix3 r i k := fun k => funext fun a => Fin.ext (by
    match a with | ⟨0, _⟩ => rfl | ⟨1, _⟩ => rfl | ⟨2, _⟩ => rfl)
  simp only [e, exp_eq, Ideal.ofBits_def, Ideal.ofBits_zero_f32, zero_add]

/-- The divide stage at (r, i, j): the softmax weight of key position j in query row i. -/
theorem weight_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (r : Fin 4) (i j : Fin 4096) :
    val_main_v27 (F := Ideal) x0 x1 x2 x3 x4 (ix3 r i j) = Cert.Attn.weight (Cert.Attn.scoreRow (Cert.Attn.proj x0 x1 x2 r i) (Cert.Attn.proj x0 x3 x4 r)) j := by
  rw [val_main_v27_apply, val_main_v26_apply, val_main_v25_apply]
  have e : idx_main_v25 (idx_main_v26 (ix3 r i j)) = ix2 r i := funext fun a => Fin.ext (by
    match a with | ⟨0, _⟩ => rfl | ⟨1, _⟩ => rfl)
  rw [e, denom_eq, exp_eq]
  simp only [Ideal.hostDivf_def]
  rfl

/-! ## The context and the output -/

/-- The context at (r, i, d): the sum over the key positions j of weight(j) · v(r, j, d). -/
theorem ctx_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (x5 : (⟨S768x64, .f32⟩ : BufTy).Contents (Elt Ideal))
    (x6 : (⟨S64, .f32⟩ : BufTy).Contents (Elt Ideal)) (r : Fin 4) (i : Fin 4096) (d : Fin 64) :
    val_main_v28 (F := Ideal) x0 x1 x2 x3 x4 x5 x6 (ix3 r i d)
      = Cert.Attn.ctxRow (Cert.Attn.proj x0 x1 x2 r i) (Cert.Attn.proj x0 x3 x4 r) (Cert.Attn.proj x0 x5 x6 r) d := by
  rw [val_main_v28_apply]
  have el : ∀ k : Fin 4096, lidx_main_v28 (ix3 r i d) k = ix3 r i k := fun k => funext fun a => Fin.ext (by
    match a with | ⟨0, _⟩ => rfl | ⟨1, _⟩ => rfl | ⟨2, _⟩ => rfl)
  have er : ∀ k : Fin 4096, ridx_main_v28 (ix3 r i d) k = ix3 r k d := fun k => funext fun a => Fin.ext (by
    match a with | ⟨0, _⟩ => rfl | ⟨1, _⟩ => rfl | ⟨2, _⟩ => rfl)
  simp only [el, er, weight_eq, v_eq]
  rfl

/-- The output at (r, i, h): the sum over the head coordinate d of ctx(r, i, d) · Wo(d, h), plus bo(h). -/
theorem out_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (x5 : (⟨S768x64, .f32⟩ : BufTy).Contents (Elt Ideal))
    (x6 : (⟨S64, .f32⟩ : BufTy).Contents (Elt Ideal)) (x7 : (⟨S64x768, .f32⟩ : BufTy).Contents (Elt Ideal))
    (x8 : (⟨S768, .f32⟩ : BufTy).Contents (Elt Ideal)) (r : Fin 4) (i : Fin 4096) (h : Fin 768) :
    val_main_v32 (F := Ideal) x0 x1 x2 x3 x4 x5 x6 x7 x8 (ix3 r i h)
      = Cert.Attn.outRow (Cert.Attn.proj x0 x1 x2 r i) (Cert.Attn.proj x0 x3 x4 r) (Cert.Attn.proj x0 x5 x6 r) x7 x8 h := by
  rw [val_main_v32_apply, val_main_v29_apply, val_main_v31_apply, val_main_v30_apply]
  have el : ∀ k : Fin 64, lidx_main_v29 (ix3 r i h) k = ix3 r i k := fun k => funext fun a => Fin.ext (by
    match a with | ⟨0, _⟩ => rfl | ⟨1, _⟩ => rfl | ⟨2, _⟩ => rfl)
  have er : ∀ k : Fin 64, ridx_main_v29 (ix3 r i h) k = ix2 k h := fun k => funext fun a => Fin.ext (by
    match a with | ⟨0, _⟩ => rfl | ⟨1, _⟩ => rfl)
  have eb : idx_main_v30 (idx_main_v31 (ix3 r i h)) = ix1 h := funext fun a => Fin.ext (by
    match a with | ⟨0, _⟩ => rfl)
  simp only [el, er, eb, ctx_eq, Ideal.addf_def]
  rfl

/-! ## The whole reference -/

/-- The reference program's result is the attention specification, index by index. -/
theorem ref_eq (x0 : (⟨S4x4096x768, .f32⟩ : BufTy).Contents (Elt Ideal)) (x1 : (⟨S768x64, .f32⟩ : BufTy).Contents (Elt Ideal))
    (x2 : (⟨S64, .f32⟩ : BufTy).Contents (Elt Ideal)) (x3 : (⟨S768x64, .f32⟩ : BufTy).Contents (Elt Ideal))
    (x4 : (⟨S64, .f32⟩ : BufTy).Contents (Elt Ideal)) (x5 : (⟨S768x64, .f32⟩ : BufTy).Contents (Elt Ideal))
    (x6 : (⟨S64, .f32⟩ : BufTy).Contents (Elt Ideal)) (x7 : (⟨S64x768, .f32⟩ : BufTy).Contents (Elt Ideal))
    (x8 : (⟨S768, .f32⟩ : BufTy).Contents (Elt Ideal)) :
    Cert.ReferenceIdeal.Read.val_main_v32 (F := Ideal) x0 x1 x2 x3 x4 x5 x6 x7 x8
      = Cert.Attn.attn x0 x1 x2 x3 x4 x5 x6 x7 x8 := by
  funext i
  obtain ⟨r, s, h, rfl⟩ : ∃ (r : Fin 4) (s : Fin 4096) (h : Fin 768), i = ix3 r s h := ⟨i 0, i 1, i 2, eq_ix3 i⟩
  exact out_eq x0 x1 x2 x3 x4 x5 x6 x7 x8 r s h

end Cert.RefAttn

end
-- ==== Proof.lean ====
/-
  Single-head softmax attention as two grid launches, against its plain reference, on the extended reals.

  The kernel program joins the three projection weight matrices (and the three biases) into one, computes queries,
  transposed keys and values in a first launch over (batch entry, half of the sequence), and in a second launch over
  (batch entry, block of 256 query rows) computes scaled scores against all keys, the softmax over each row, the
  weighted sum of the values and the output projection. The reference computes the three projections separately, scales
  the scores by one over the square root of sixty-four, and applies the same softmax, weighted sum and output
  projection.

  Both are the one function `Cert.Attn.attn` of the nine argument arrays (Proof/Spec.lean): the kernel's side by
  reading what each launch leaves in its arrays (Proof/IdealFrame.lean for the run, Proof/Blocks0.lean,
  Proof/Blocks1.lean and Proof/KernelIsAttn.lean for the contents, over the bodies' values read at an index in
  Proof/Pay0.lean and Proof/Pay1.lean), the reference's side operation by operation (Proof/RefIsAttn.lean). The two
  differ only by re-indexings — the joined weight columns, the transposed keys — and by the scale, where one over the
  square root of sixty-four is the kernel's one eighth; nothing needs the inputs to be finite. Each program's frame is
  its run with the result dropped; the word-level program's run is the same text read at words (Proof/BitsFrame.lean).
  The idealized kernel is the printed kernel's own text, so there is nothing to preserve.
-/
import proofs.«151435_j77017353552430_2_alg».proof.Defs
import proofs.«151435_j77017353552430_2_alg».proof.Proof.Gen.Kernel
import proofs.«151435_j77017353552430_2_alg».proof.Proof.Gen.KernelIdeal
import proofs.«151435_j77017353552430_2_alg».proof.Proof.Gen.ReferenceIdeal
import proofs.«151435_j77017353552430_2_alg».proof.Proof.Gen.Pre_finite_inputs
import proofs.«151435_j77017353552430_2_alg».proof.Proof.Gen.ReferenceIdeal.Run
import proofs.«151435_j77017353552430_2_alg».proof.Proof.Gen.ReferenceIdeal.Read
import proofs.«151435_j77017353552430_2_alg».proof.Proof.BitsFrame
import proofs.«151435_j77017353552430_2_alg».proof.Proof.IdealFrame
import proofs.«151435_j77017353552430_2_alg».proof.Proof.KernelIsAttn
import proofs.«151435_j77017353552430_2_alg».proof.Proof.RefIsAttn
import Idealize.ShloMosaic.Adequacy
import Idealize.ShloMosaic.Init

noncomputable section

namespace Cert.Proof

open Idealize.ShloMosaic Idealize.ShloMosaic.TcCoe Idealize.SL.Sem

/-- The word-level kernel program runs to the end and keeps its arguments. -/
theorem frame_k : Cert.frame_Kernel := fun m ρ _ => Cert.Kernel.Fr.frame m ρ

/-- The idealized kernel program runs to the end and keeps its arguments. -/
theorem frame_ki : Cert.frame_KernelIdeal := fun m ρ _ => Cert.KernelIdeal.Fr.frame m ρ

/-- The reference runs to the end and keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the result array at the attention specification of
    the arguments. -/
theorem algebraic : Cert.algebraic_KernelIdeal_ReferenceIdeal := by
  intro m ρ m' ρ' _ hagree
  refine ⟨fun c => Cert.Attn.attn
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8)), ?_, ?_⟩
  · exact Cert.KernelIdeal.Fr.run_gen m ρ (fun s h c =>
      ⟨(Cert.KernelIdeal.Fr.result_eq m ρ s h c).trans (Cert.KernelIdeal.Val.result_attn m ρ c),
        Cert.KernelIdeal.Fr.args_kept m ρ s h c⟩)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v32_eq, Cert.RefAttn.ref_eq, a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
